-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S_ : Shape := ⟨0, ![]⟩

class Facts : Prop where
  bcast_S_S1048576x6 : S_.BroadcastsInDim S1048576x6 (![] : Fin 0 → Fin S1048576x6.rank)
  reducesTo_S1048576x6_S_d0_1 : S1048576x6.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S18x64 : S_.BroadcastsInDim S18x64 (![] : Fin 0 → Fin S18x64.rank)
  reducesTo_S18x64_S_d0_1 : S18x64.ReducesTo [0, 1] S_

variable [Facts]

def fn_part3 {F : FTy → Type} [FloatOps F] (main_arg11 : FVec F S64x64 .f32) (main_arg12 : FVec F S64x64 .f32) (main_v48 : IVec S_ 1) (main_v49 : FVec F S18x64 .f32) (main_v50 : FVec F S18x64 .f32) : IVec S_ 1 :=
  let main_v51 : IVec S18x64 1 := cmpf .olt main_v49 main_v50
  let main_c_19 : IVec S_ 1 := constantI S_ 1 1#1
  let main_v52 : IVec S_ 1 := (fun x v => Host.reduce IntOp.andi x v reducesTo_S18x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  main_v63

def fn_part2 {F : FTy → Type} [FloatOps F] (main_arg7 : FVec F S18x64 .f32) (main_arg8 : FVec F S64x64 .f32) (main_arg9 : FVec F S64x64 .f32) (main_arg10 : FVec F S18x64 .f32) (main_arg11 : FVec F S64x64 .f32) (main_arg12 : FVec F S64x64 .f32) (main_v33 : IVec S_ 1) : IVec S_ 1 :=
  let main_v34 : FVec F S18x64 .f32 := Host.absf main_arg7
  let main_cst_12 : FVec F S_ .f32 := constant S_ .f32 0x7F800000#32
  let main_v35 : FVec F S18x64 .f32 := broadcastInDim S18x64 ![] bcast_S_S18x64 main_cst_12
  let main_v36 : IVec S18x64 1 := cmpf .olt main_v34 main_v35
  let main_c_13 : IVec S_ 1 := constantI S_ 1 1#1
  let main_v37 : IVec S_ 1 := (fun x v => Host.reduce IntOp.andi x v reducesTo_S18x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S18x64 .f32 := Host.absf main_arg10
  let main_cst_18 : FVec F S_ .f32 := constant S_ .f32 0x7F800000#32
  let main_v50 : FVec F S18x64 .f32 := broadcastInDim S18x64 ![] bcast_S_S18x64 main_cst_18
  fn_part3 (F := F) main_arg11 main_arg12 main_v48 main_v49 main_v50

def fn_part1 {F : FTy → Type} [FloatOps F] (main_arg4 : FVec F S18x64 .f32) (main_arg5 : FVec F S64x64 .f32) (main_arg6 : FVec F S64x64 .f32) (main_arg7 : FVec F S18x64 .f32) (main_arg8 : FVec F S64x64 .f32) (main_arg9 : FVec F S64x64 .f32) (main_arg10 : FVec F S18x64 .f32) (main_arg11 : FVec F S64x64 .f32) (main_arg12 : FVec F S64x64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S18x64 .f32 := Host.absf main_arg4
  let main_cst_6 : FVec F S_ .f32 := constant S_ .f32 0x7F800000#32
  let main_v20 : FVec F S18x64 .f32 := broadcastInDim S18x64 ![] bcast_S_S18x64 main_cst_6
  let main_v21 : IVec S18x64 1 := cmpf .olt main_v19 main_v20
  let main_c_7 : IVec S_ 1 := constantI S_ 1 1#1
  let main_v22 : IVec S_ 1 := (fun x v => Host.reduce IntOp.andi x v reducesTo_S18x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1048576x6 .f32) (main_arg1 : FVec F S3x64 .f32) (main_arg2 : FVec F S64x64 .f32) (main_arg3 : FVec F S64x16 .f32) (main_arg4 : FVec F S18x64 .f32) (main_arg5 : FVec F S64x64 .f32) (main_arg6 : FVec F S64x64 .f32) (main_arg7 : FVec F S18x64 .f32) (main_arg8 : FVec F S64x64 .f32) (main_arg9 : FVec F S64x64 .f32) (main_arg10 : FVec F S18x64 .f32) (main_arg11 : FVec F S64x64 .f32) (main_arg12 : FVec F S64x64 .f32) : IVec S_ 1 :=
  let main_v0 : FVec F S1048576x6 .f32 := Host.absf main_arg0
  let main_cst : FVec F S_ .f32 := constant S_ .f32 0x7F800000#32
  let main_v1 : FVec F S1048576x6 .f32 := broadcastInDim S1048576x6 ![] bcast_S_S1048576x6 main_cst
  let main_v2 : IVec S1048576x6 1 := cmpf .olt main_v0 main_v1
  let main_c : IVec S_ 1 := constantI S_ 1 1#1
  let main_v3 : IVec S_ 1 := (fun x v => Host.reduce IntOp.andi x v reducesTo_S1048576x6_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_arg8 main_arg9 main_arg10 main_arg11 main_arg12 main_v13 main_v16
-- ==== Kernel.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S18x192 : Shape := ⟨2, ![18, 192]⟩
abbrev S_ : Shape := ⟨0, ![]⟩
abbrev S64x192 : Shape := ⟨2, ![64, 192]⟩
abbrev S192x192 : Shape := ⟨2, ![192, 192]⟩
abbrev S1048576x193 : Shape := ⟨2, ![1048576, 193]⟩
abbrev S4096x6 : Shape := ⟨2, ![4096, 6]⟩
abbrev S4096x193 : Shape := ⟨2, ![4096, 193]⟩
abbrev S4096x3 : Shape := ⟨2, ![4096, 3]⟩
abbrev S4096x64 : Shape := ⟨2, ![4096, 64]⟩
abbrev S4096x16 : Shape := ⟨2, ![4096, 16]⟩
abbrev S4096x1 : Shape := ⟨2, ![4096, 1]⟩
abbrev S4096x15 : Shape := ⟨2, ![4096, 15]⟩
abbrev S4096x18 : Shape := ⟨2, ![4096, 18]⟩
abbrev S4096x192 : Shape := ⟨2, ![4096, 192]⟩

abbrev nBuf : Space → Nat
  | .hbm => 33
  | .vmem => 10
  | .smem => 0
  | _ => 0

abbrev bufTy : (tb : Table) → Fin (tcTables nBuf tb) → BufTy
  | .hbm, ⟨0, _⟩ => ⟨S1048576x6, .f32⟩
  | .hbm, ⟨1, _⟩ => ⟨S3x64, .f32⟩
  | .hbm, ⟨2, _⟩ => ⟨S64x64, .f32⟩
  | .hbm, ⟨3, _⟩ => ⟨S64x16, .f32⟩
  | .hbm, ⟨4, _⟩ => ⟨S18x64, .f32⟩
  | .hbm, ⟨5, _⟩ => ⟨S64x64, .f32⟩
  | .hbm, ⟨6, _⟩ => ⟨S64x64, .f32⟩
  | .hbm, ⟨7, _⟩ => ⟨S18x64, .f32⟩
  | .hbm, ⟨8, _⟩ => ⟨S64x64, .f32⟩
  | .hbm, ⟨9, _⟩ => ⟨S64x64, .f32⟩
  | .hbm, ⟨10, _⟩ => ⟨S18x64, .f32⟩
  | .hbm, ⟨11, _⟩ => ⟨S64x64, .f32⟩
  | .hbm, ⟨12, _⟩ => ⟨S64x64, .f32⟩
  | .hbm, ⟨13, _⟩ => ⟨S3x64, .bf16⟩
  | .hbm, ⟨14, _⟩ => ⟨S64x64, .bf16⟩
  | .hbm, ⟨15, _⟩ => ⟨S64x16, .bf16⟩
  | .hbm, ⟨16, _⟩ => ⟨S18x192, .f32⟩
  | .hbm, ⟨17, _⟩ => ⟨S18x192, .bf16⟩
  | .hbm, ⟨18, _⟩ => ⟨S_, .f32⟩
  | .hbm, ⟨19, _⟩ => ⟨S64x64, .f32⟩
  | .hbm, ⟨20, _⟩ => ⟨S64x192, .f32⟩
  | .hbm, ⟨21, _⟩ => ⟨S64x192, .f32⟩
  | .hbm, ⟨22, _⟩ => ⟨S64x192, .f32⟩
  | .hbm, ⟨23, _⟩ => ⟨S192x192, .f32⟩
  | .hbm, ⟨24, _⟩ => ⟨S192x192, .bf16⟩
  | .hbm, ⟨25, _⟩ => ⟨S_, .f32⟩
  | .hbm, ⟨26, _⟩ => ⟨S64x64, .f32⟩
  | .hbm, ⟨27, _⟩ => ⟨S64x192, .f32⟩
  | .hbm, ⟨28, _⟩ => ⟨S64x192, .f32⟩
  | .hbm, ⟨29, _⟩ => ⟨S64x192, .f32⟩
  | .hbm, ⟨30, _⟩ => ⟨S192x192, .f32⟩
  | .hbm, ⟨31, _⟩ => ⟨S192x192, .bf16⟩
  | .hbm, ⟨32, _⟩ => ⟨S1048576x193, .f32⟩
  | .local _ .vmem, ⟨0, _⟩ => ⟨S4096x6, .f32⟩
  | .local _ .vmem, ⟨1, _⟩ => ⟨S4096x6, .f32⟩
  | .local _ .vmem, ⟨2, _⟩ => ⟨S3x64, .bf16⟩
  | .local _ .vmem, ⟨3, _⟩ => ⟨S64x64, .bf16⟩
  | .local _ .vmem, ⟨4, _⟩ => ⟨S64x16, .bf16⟩
  | .local _ .vmem, ⟨5, _⟩ => ⟨S18x192, .bf16⟩
  | .local _ .vmem, ⟨6, _⟩ => ⟨S192x192, .bf16⟩
  | .local _ .vmem, ⟨7, _⟩ => ⟨S192x192, .bf16⟩
  | .local _ .vmem, ⟨8, _⟩ => ⟨S4096x193, .f32⟩
  | .local _ .vmem, ⟨9, _⟩ => ⟨S4096x193, .f32⟩
  | _, _ => ⟨S1048576x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x193 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  concatenates_S18x64_S18x64_S18x64_S18x192_d1 : Shape.Concatenates [S18x64, S18x64, S18x64] S18x192 1
  bcast_S_S64x64 : S_.BroadcastsInDim S64x64 (![] : Fin 0 → Fin S64x64.rank)
  concatenates_S64x64_S64x64_S64x64_S64x192_d1 : Shape.Concatenates [S64x64, S64x64, S64x64] S64x192 1
  concatenates_S64x192_S64x192_S64x192_S192x192_d0 : Shape.Concatenates [S64x192, S64x192, S64x192] S192x192 0
  inb_S4096x6_S4096x6_0_0 : ∀ a, (![0, 0] : Fin 2 → Nat) a + S4096x6.size a ≤ S4096x6.size a
  h_S4096x6 : 0 < S4096x6.numel
  slices_S4096x6_o0_0_S4096x3 : S4096x6.Slices ![0, 0] S4096x3
  slices_S4096x6_o0_3_S4096x3 : S4096x6.Slices ![0, 3] S4096x3
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S4096x16_o0_0_S4096x1 : S4096x16.Slices ![0, 0] S4096x1
  slices_S4096x16_o0_1_S4096x15 : S4096x16.Slices ![0, 1] S4096x15
  concatenates_S4096x3_S4096x15_S4096x18_d1 : Shape.Concatenates [S4096x3, S4096x15] S4096x18 1
  inb_S18x192_S18x192_0_0 : ∀ a, (![0, 0] : Fin 2 → Nat) a + S18x192.size a ≤ S18x192.size a
  h_S18x192 : 0 < S18x192.numel
  shapeCasts_S18x192_S18x192 : S18x192.ShapeCasts S18x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S4096x193_S4096x192_0_0 : ∀ a, (![0, 0] : Fin 2 → Nat) a + S4096x192.size a ≤ S4096x193.size a
  h_S4096x192 : 0 < S4096x192.numel
  inb_S4096x193_S4096x1_0_192 : ∀ a, (![0, 192] : Fin 2 → Nat) a + S4096x1.size a ≤ S4096x193.size a
  h_S4096x1 : 0 < S4096x1.numel
  dot_S4096x3_S3x64_S4096x64_1_0_0_1_n_n_wf : DotDims.WF S4096x3 S3x64 S4096x64 [1] [0] [0] [1] [] []
  dot_S4096x64_S64x64_S4096x64_1_0_0_1_n_n_wf : DotDims.WF S4096x64 S64x64 S4096x64 [1] [0] [0] [1] [] []
  dot_S4096x64_S64x16_S4096x16_1_0_0_1_n_n_wf : DotDims.WF S4096x64 S64x16 S4096x16 [1] [0] [0] [1] [] []
  dot_S4096x18_S18x192_S4096x192_1_0_0_1_n_n_wf : DotDims.WF S4096x18 S18x192 S4096x192 [1] [0] [0] [1] [] []
  dot_S4096x192_S192x192_S4096x192_1_0_0_1_n_n_wf : DotDims.WF S4096x192 S192x192 S4096x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S1048576x6.size a
  hwx0_0 : ∀ i : grid0.Coords, EltTy.bits .f32 = 32 ∨ (Rect.block (s := S1048576x6) S4096x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .bf16 = 32 ∨ (Rect.block (s := S3x64) S3x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .bf16 = 32 ∨ (Rect.block (s := S64x16) S64x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S18x192.size a ≤ S18x192.size a
  hwx0_4 : ∀ i : grid0.Coords, EltTy.bits .bf16 = 32 ∨ (Rect.block (s := S18x192) S18x192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x192.size a ≤ S192x192.size a
  hwx0_5 : ∀ i : grid0.Coords, EltTy.bits .bf16 = 32 ∨ (Rect.block (s := S192x192) S192x192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x192.size a ≤ S192x192.size a
  hwx0_6 : ∀ i : grid0.Coords, EltTy.bits .bf16 = 32 ∨ (Rect.block (s := S192x192) S192x192.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x193.size a ≤ S1048576x193.size a
  hwx0_7 : ∀ i : grid0.Coords, EltTy.bits .f32 = 32 ∨ (Rect.block (s := S1048576x193) S4096x193.size (cc0_transform_7 i) (hinb0_7 i)).WholeWords (EltTy.packing .f32)

variable [Facts₀]

def dot_S4096x3_S3x64_S4096x64_1_0_0_1_n_n : DotDims S4096x3 S3x64 S4096x64 where
  lhsContracting := [1]
  rhsContracting := [0]
  lhsNonContracting := [0]
  rhsNonContracting := [1]
  lhsBatch := []
  rhsBatch := []
  wf := dot_S4096x3_S3x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x18_S18x192_S4096x192_1_0_0_1_n_n : DotDims S4096x18 S18x192 S4096x192 where
  lhsContracting := [1]
  rhsContracting := [0]
  lhsNonContracting := [0]
  rhsNonContracting := [1]
  lhsBatch := []
  rhsBatch := []
  wf := dot_S4096x18_S18x192_S4096x192_1_0_0_1_n_n_wf
def dot_S4096x192_S192x192_S4096x192_1_0_0_1_n_n : DotDims S4096x192 S192x192 S4096x192 where
  lhsContracting := [1]
  rhsContracting := [0]
  lhsNonContracting := [0]
  rhsNonContracting := [1]
  lhsBatch := []
  rhsBatch := []
  wf := dot_S4096x192_S192x192_S4096x192_1_0_0_1_n_n_wf

abbrev win0_0 : Pipeline.Window sig grid0 :=
  Pipeline.Window.ofSpec (Memref.whole main_arg0) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S18x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S192x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S192x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S4096x193.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x6 : Shape := ⟨2, ![1048576, 6]⟩
abbrev S3x64 : Shape := ⟨2, ![3, 64]⟩
abbrev S64x64 : Shape := ⟨2, ![64, 64]⟩
abbrev S64x16 : Shape := ⟨2, ![64, 16]⟩
abbrev S18x64 : Shape := ⟨2, ![18, 64]⟩
abbrev S1048576x3 : Shape := ⟨2, ![1048576, 3]⟩
abbrev S1048576x64 : Shape := ⟨2, ![1048576, 64]⟩
abbrev S_ : Shape := ⟨0, ![]⟩
abbrev S1048576x16 : Shape := ⟨2, ![1048576, 16]⟩
abbrev S1048576x1 : Shape := ⟨2, ![1048576, 1]⟩
abbrev S1048576 : Shape := ⟨1, ![1048576]⟩
abbrev S1048576x15 : Shape := ⟨2, ![1048576, 15]⟩
abbrev S1048576x18 : Shape := ⟨2, ![1048576, 18]⟩
abbrev S1048576x193 : Shape := ⟨2, ![1048576, 193]⟩

abbrev nBuf : Space → Nat
  | .hbm => 57
  | .vmem => 0
  | .smem => 0
  | _ => 0

abbrev bufTy : (tb : Table) → Fin (tcTables nBuf tb) → BufTy
  | .hbm, ⟨0, _⟩ => ⟨S1048576x6, .f32⟩
  | .hbm, ⟨1, _⟩ => ⟨S3x64, .f32⟩
  | .hbm, ⟨2, _⟩ => ⟨S64x64, .f32⟩
  | .hbm, ⟨3, _⟩ => ⟨S64x16, .f32⟩
  | .hbm, ⟨4, _⟩ => ⟨S18x64, .f32⟩
  | .hbm, ⟨5, _⟩ => ⟨S64x64, .f32⟩
  | .hbm, ⟨6, _⟩ => ⟨S64x64, .f32⟩
  | .hbm, ⟨7, _⟩ => ⟨S18x64, .f32⟩
  | .hbm, ⟨8, _⟩ => ⟨S64x64, .f32⟩
  | .hbm, ⟨9, _⟩ => ⟨S64x64, .f32⟩
  | .hbm, ⟨10, _⟩ => ⟨S18x64, .f32⟩
  | .hbm, ⟨11, _⟩ => ⟨S64x64, .f32⟩
  | .hbm, ⟨12, _⟩ => ⟨S64x64, .f32⟩
  | .hbm, ⟨13, _⟩ => ⟨S1048576x3, .f32⟩
  | .hbm, ⟨14, _⟩ => ⟨S1048576x3, .f32⟩
  | .hbm, ⟨15, _⟩ => ⟨S1048576x64, .f32⟩
  | .hbm, ⟨16, _⟩ => ⟨S_, .f32⟩
  | .hbm, ⟨17, _⟩ => ⟨S1048576x64, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S1048576x64, .f32⟩
  | .hbm, ⟨22, _⟩ => ⟨S1048576x64, .f32⟩
  | .hbm, ⟨23, _⟩ => ⟨S1048576x16, .f32⟩
  | .hbm, ⟨24, _⟩ => ⟨S1048576x1, .f32⟩
  | .hbm, ⟨25, _⟩ => ⟨S1048576, .f32⟩
  | .hbm, ⟨26, _⟩ => ⟨S1048576x15, .f32⟩
  | .hbm, ⟨27, _⟩ => ⟨S1048576x18, .f32⟩
  | .hbm, ⟨28, _⟩ => ⟨S1048576x64, .f32⟩
  | .hbm, ⟨29, _⟩ => ⟨S_, .f32⟩
  | .hbm, ⟨30, _⟩ => ⟨S1048576x64, .f32⟩
  | .hbm, ⟨31, _⟩ => ⟨S1048576x64, .f32⟩
  | .hbm, ⟨32, _⟩ => ⟨S1048576x64, .f32⟩
  | .hbm, ⟨33, _⟩ => ⟨S_, .f32⟩
  | .hbm, ⟨34, _⟩ => ⟨S1048576x64, .f32⟩
  | .hbm, ⟨35, _⟩ => ⟨S1048576x64, .f32⟩
  | .hbm, ⟨36, _⟩ => ⟨S1048576x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S_, .f32⟩
  | .hbm, ⟨43, _⟩ => ⟨S1048576x64, .f32⟩
  | .hbm, ⟨44, _⟩ => ⟨S1048576x64, .f32⟩
  | .hbm, ⟨45, _⟩ => ⟨S1048576x64, .f32⟩
  | .hbm, ⟨46, _⟩ => ⟨S1048576x64, .f32⟩
  | .hbm, ⟨47, _⟩ => ⟨S_, .f32⟩
  | .hbm, ⟨48, _⟩ => ⟨S1048576x64, .f32⟩
  | .hbm, ⟨49, _⟩ => ⟨S1048576x64, .f32⟩
  | .hbm, ⟨50, _⟩ => ⟨S1048576x64, .f32⟩
  | .hbm, ⟨51, _⟩ => ⟨S_, .f32⟩
  | .hbm, ⟨52, _⟩ => ⟨S1048576x64, .f32⟩
  | .hbm, ⟨53, _⟩ => ⟨S1048576x64, .f32⟩
  | .hbm, ⟨54, _⟩ => ⟨S1048576x64, .f32⟩
  | .hbm, ⟨55, _⟩ => ⟨S1048576x1, .f32⟩
  | .hbm, ⟨56, _⟩ => ⟨S1048576x193, .f32⟩
  | _, _ => ⟨S1048576x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call0_cst : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_call1_cst : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call2_cst : Ref sig .tc := ⟨.hbm, 29, rfl⟩
abbrev main_call2_v0 : Ref sig .tc := ⟨.hbm, 30, rfl⟩
abbrev main_v12 : Ref sig .tc := ⟨.hbm, 31, rfl⟩
abbrev main_v13 : Ref sig .tc := ⟨.hbm, 32, rfl⟩
abbrev main_call3_cst : Ref sig .tc := ⟨.hbm, 33, rfl⟩
abbrev main_call3_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call4_cst : Ref sig .tc := ⟨.hbm, 38, rfl⟩
abbrev main_call4_v0 : Ref sig .tc := ⟨.hbm, 39, rfl⟩
abbrev main_v17 : Ref sig .tc := ⟨.hbm, 40, rfl⟩
abbrev main_v18 : Ref sig .tc := ⟨.hbm, 41, rfl⟩
abbrev main_call5_cst : Ref sig .tc := ⟨.hbm, 42, rfl⟩
abbrev main_call5_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_call6_cst : Ref sig .tc := ⟨.hbm, 47, rfl⟩
abbrev main_call6_v0 : Ref sig .tc := ⟨.hbm, 48, rfl⟩
abbrev main_v22 : Ref sig .tc := ⟨.hbm, 49, rfl⟩
abbrev main_v23 : Ref sig .tc := ⟨.hbm, 50, rfl⟩
abbrev main_call7_cst : Ref sig .tc := ⟨.hbm, 51, rfl⟩
abbrev main_call7_v0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩

abbrev nD : Nat := 1
abbrev τ : Topo := Topo.v7x

variable {F : FTy → Type} [FloatOps F]

class Facts₀ : Prop where
  slices_S1048576x6_S1048576x3_0_0 : S1048576x6.Slices ![0, 0] S1048576x3
  slices_S1048576x6_S1048576x3_0_3 : S1048576x6.Slices ![0, 3] S1048576x3
  bcast_S_S1048576x64 : S_.BroadcastsInDim S1048576x64 (![] : Fin 0 → Fin S1048576x64.rank)
  slices_S1048576x16_S1048576x1_0_0 : S1048576x16.Slices ![0, 0] S1048576x1
  shapeCasts_S1048576x1_S1048576 : S1048576x1.ShapeCasts S1048576
  slices_S1048576x16_S1048576x15_0_1 : S1048576x16.Slices ![0, 1] S1048576x15
  concatenates_S1048576x3_S1048576x15_S1048576x18_d1 : Shape.Concatenates [S1048576x3, S1048576x15] S1048576x18 1
  bcast_S1048576_S1048576x1_0 : S1048576.BroadcastsInDim S1048576x1 (![0] : Fin 1 → Fin S1048576x1.rank)
  concatenates_S1048576x64_S1048576x64_S1048576x64_S1048576x1_S1048576x193_d1 : Shape.Concatenates [S1048576x64, S1048576x64, S1048576x64, S1048576x1] S1048576x193 1
  dot_S1048576x3_S3x64_S1048576x64_1_0_0_1_n_n_wf : DotDims.WF S1048576x3 S3x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []
  dot_S1048576x18_S18x64_S1048576x64_1_0_0_1_n_n_wf : DotDims.WF S1048576x18 S18x64 S1048576x64 [1] [0] [0] [1] [] []

variable [Facts₀]

def dot_S1048576x3_S3x64_S1048576x64_1_0_0_1_n_n : DotDims S1048576x3 S3x64 S1048576x64 where
  lhsContracting := [1]
  rhsContracting := [0]
  lhsNonContracting := [0]
  rhsNonContracting := [1]
  lhsBatch := []
  rhsBatch := []
  wf := dot_S1048576x3_S3x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf

class Facts : Prop extends Facts₀ where

variable [Facts]
-- ==== Proof.FrameSetupK.lean ====
/-
  The frame run of `Kernel`'s @main, at any float instance: nineteen host operations build the three narrow weight
  matrices' copies and the three fused ones (the first layers side by side, the later layers block-diagonally), then
  one grid of 256 points runs the body on 4096 rows each. The body loads its seven input blocks whole, computes, and
  writes its output block in two stores that tile it: columns 0–191 (the fused colour net) and column 192 (the
  density). It keeps nothing between points, so what point `t` leaves in the output's staging buffer is one
  function of the input blocks at `t`; the pipeline's launch theorem then gives the run, with every output array
  named and every argument array unchanged.
-/
import proofs.«111896_j40312563040834_2_alg».proof.Proof.Gen.Kernel.Launch
import proofs.«111896_j40312563040834_2_alg».proof.Proof.Gen.Kernel.Skeleton
import proofs.«111896_j40312563040834_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: every intermediate value of @main, no argument. -/
def written : List (Ref sig .tc) :=
  [main_v0, main_v1, main_v2, main_v3, main_v4, main_cst, main_v5, main_v6, main_v7, main_v8, main_v9, main_v10,
    main_cst_0, main_v11, main_v12, main_v13, main_v14, main_v15, main_v16]

/-- A buffer no host operation writes is found as launched. -/
theorem V_unwritten (c : Dev nD) (r : Ref sig .tc) (hr : ∀ y ∈ written, r ≠ y) : V m c r = m ((c : Thread nD τ).loc r) :=
  StableHlo.after_of_forall_not_mem (b := Proc.devRef .tc r) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (hr _ (by simp [written]))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: an unfetched
    window's block index has not moved. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S4096x6 := Rect.unit (s := S4096x6) ![0, 0] S4096x6.size inb_S4096x6_S4096x6_0_0
abbrev rS0 : Rect S3x64 := Rect.unit (s := S3x64) ![0, 0] S3x64.size inb_S3x64_S3x64_0_0
abbrev rS1 : Rect S64x64 := Rect.unit (s := S64x64) ![0, 0] S64x64.size inb_S64x64_S64x64_0_0
abbrev rS2 : Rect S64x16 := Rect.unit (s := S64x16) ![0, 0] S64x16.size inb_S64x16_S64x16_0_0
abbrev rC0 : Rect S18x192 := Rect.unit (s := S18x192) ![0, 0] S18x192.size inb_S18x192_S18x192_0_0
abbrev rC : Rect S192x192 := Rect.unit (s := S192x192) ![0, 0] S192x192.size inb_S192x192_S192x192_0_0
abbrev rRgb : Rect S4096x193 := Rect.unit (s := S4096x193) ![0, 0] S4096x192.size inb_S4096x193_S4096x192_0_0
abbrev rSig : Rect S4096x193 := Rect.unit (s := S4096x193) ![0, 192] S4096x1.size inb_S4096x193_S4096x1_0_192

/-! ## What the body leaves in the output window's buffer -/

/-- The output's staging buffer after the body, from the input blocks: its two stores as pieces, the later first. -/
def outBlock (x0 : Vec F S4096x6 .f32) (x1 : Vec F S3x64 .bf16) (x2 : Vec F S64x64 .bf16) (x3 : Vec F S64x16 .bf16)
    (x4 : Vec F S18x192 .bf16) (x5 x6 : Vec F S192x192 .bf16) : Vec F S4096x193 .f32 :=
  View.canon [⟨rSig, k0_pay3 (View.ld x0 rX) (View.ld x1 rS0) (View.ld x2 rS1) (View.ld x3 rS2)⟩,
    ⟨rRgb, k0_pay1 (k0_pay4 (View.ld x0 rX) (View.ld x1 rS0) (View.ld x2 rS1) (View.ld x3 rS2) (View.ld x4 rC0) (View.ld x5 rC)) (View.ld x6 rC)⟩]

/-- The two stores cover the block: a column below 192 lies in the wide store, column 192 in the narrow one. -/
theorem cover_out (p0 : Vec F S4096x1 .f32) (p1 : Vec F S4096x192 .f32) (y : S4096x193.Idx) :
    ∃ pc ∈ ([⟨rSig, p0⟩, ⟨rRgb, p1⟩] : List (View.Piece (Elt F) S4096x193 .f32)), y ∈ pc.1.set := by
  have h0 : (y 0).val < 4096 := (y 0).isLt
  have h1 : (y 1).val < 193 := (y 1).isLt
  by_cases hc : (y 1).val < 192
  · refine ⟨⟨rRgb, p1⟩, by simp, ?_⟩
    rw [Rect.mem_set_unit]
    intro a
    match a with
    | ⟨0, _⟩ => exact ⟨Nat.zero_le _, by show (y 0).val < 0 + 4096; omega⟩
    | ⟨1, _⟩ => exact ⟨Nat.zero_le _, by show (y 1).val < 0 + 192; omega⟩
  · refine ⟨⟨rSig, p0⟩, by simp, ?_⟩
    rw [Rect.mem_set_unit]
    intro a
    match a with
    | ⟨0, _⟩ => exact ⟨Nat.zero_le _, by show (y 0).val < 0 + 4096; omega⟩
    | ⟨1, _⟩ => exact ⟨by show 192 ≤ (y 1).val; omega, by show (y 1).val < 192 + 1; omega⟩

end Cert.Kernel.Frm

end
-- ==== Proof.FrameBodyK.lean ====
/-
  The body's triple, the pipeline's proof data and the frame run of `Kernel`'s @main, at any float instance.
-/
import proofs.«111896_j40312563040834_2_alg».proof.Proof.FrameSetupK

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on whole staging memrefs, the seven inputs' at read contents `x0 … x6` and the output's at anything,
    runs to the continuation holding the inputs' as they were and the output's at `outBlock` of them: the two loads
    of the output buffer bind values nothing reads, and the two stores cover it. -/
theorem sound_kernel (c : Dev nD) (E : Set ℕ) (i : grid0.Coords) (arg1 : Memref sig .tc .vmem S4096x6 .f32) (harg1 : arg1.IsWhole) (arg2 : Memref sig .tc .vmem S3x64 .bf16) (harg2 : arg2.IsWhole) (arg3 : Memref sig .tc .vmem S64x64 .bf16) (harg3 : arg3.IsWhole) (arg4 : Memref sig .tc .vmem S64x16 .bf16) (harg4 : arg4.IsWhole) (arg5 : Memref sig .tc .vmem S18x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S4096x193 .f32) (harg8 : arg8.IsWhole)
    (x0 : Vec F S4096x6 .f32) (x1 : Vec F S3x64 .bf16) (x2 : Vec F S64x64 .bf16) (x3 : Vec F S64x16 .bf16) (x4 : Vec F S18x192 .bf16) (x5 x6 : Vec F S192x192 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _ _)

end Cert.Kernel.Frm

end
-- ==== Proof.FrameRunK.lean ====
/-
  The pipeline's proof data and the frame run of `Kernel`'s @main, at any float instance: at every grid point each
  input's staging buffer holds its block and the body leaves the output's at `outBlock` of the seven input blocks;
  the launch theorem turns the body's triple into the run, after which the output array is what the 256 points wrote
  back and every argument array is as launched.
-/
import proofs.«111896_j40312563040834_2_alg».proof.Proof.FrameBodyK

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at point `t` each input's buffer at its block and the
    output's at `outBlock` of the input blocks; the scoped rest and the generator register untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    every array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the output array is what the points wrote back. -/
theorem post7 (r : PUnit × MemSt nD τ sig (Elt F)) (h : Pipeline.FramePost cfgs (dats m) 0 (V m) r) (c : Dev nD) :
    r.2.mem ((c : Thread nD τ).loc main_v17) = (dats m 0 c).arrAt 7 cfg0.N :=
  (h c).1 7

/-- The rows argument is staged by input window 0 and never written back; -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_unwritten m c main_arg0 (by decide))))
/-- the weight arguments are staged by no window (the windows stage the copies the host operations made). -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_unwritten m c main_arg1 (by decide))
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_unwritten m c main_arg2 (by decide))
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_unwritten m c main_arg3 (by decide))
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_unwritten m c main_arg4 (by decide))
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_unwritten m c main_arg5 (by decide))
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_unwritten m c main_arg6 (by decide))
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_unwritten m c main_arg7 (by decide))
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_unwritten m c main_arg8 (by decide))
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_unwritten m c main_arg9 (by decide))
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_unwritten m c main_arg10 (by decide))
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_unwritten m c main_arg11 (by decide))
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_unwritten m c main_arg12 (by decide))

/-- The run with the output array named and the arguments unchanged. -/
theorem run_blocks : θ_run defs (onTc (τ := τ) (main (F := F))) ⟨m, fun _ => 0, ρ⟩ fun r => ∀ c : Dev nD,
      r.2.mem ((c : Thread nD τ).loc main_v17) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

/-- The frame: @main runs to the end and leaves every argument array as launched. -/
theorem frame : θ_run defs (onTc (τ := τ) (main (F := F))) ⟨m, fun _ => 0, ρ⟩ fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => (h c).2) (run_blocks m ρ)

end Cert.Kernel.Frm

end
-- ==== Proof.FrameSetupI.lean ====
/-
  The frame run of `KernelIdeal`'s @main, at any float instance: nineteen host operations build the three narrow weight
  matrices' copies and the three fused ones (the first layers side by side, the later layers block-diagonally), then
  one grid of 256 points runs the body on 4096 rows each. The body loads its seven input blocks whole, computes, and
  writes its output block in two stores that tile it: columns 0–191 (the fused colour net) and column 192 (the
  density). It keeps nothing between points, so what point `t` leaves in the output's staging buffer is one
  function of the input blocks at `t`; the pipeline's launch theorem then gives the run, with every output array
  named and every argument array unchanged.
-/
import proofs.«111896_j40312563040834_2_alg».proof.Proof.Gen.KernelIdeal.Launch
import proofs.«111896_j40312563040834_2_alg».proof.Proof.Gen.KernelIdeal.Skeleton
import proofs.«111896_j40312563040834_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: every intermediate value of @main, no argument. -/
def written : List (Ref sig .tc) :=
  [main_v0, main_v1, main_v2, main_v3, main_v4, main_cst, main_v5, main_v6, main_v7, main_v8, main_v9, main_v10,
    main_cst_0, main_v11, main_v12, main_v13, main_v14, main_v15, main_v16]

/-- A buffer no host operation writes is found as launched. -/
theorem V_unwritten (c : Dev nD) (r : Ref sig .tc) (hr : ∀ y ∈ written, r ≠ y) : V m c r = m ((c : Thread nD τ).loc r) :=
  StableHlo.after_of_forall_not_mem (b := Proc.devRef .tc r) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (hr _ (by simp [written]))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: an unfetched
    window's block index has not moved. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S4096x6 := Rect.unit (s := S4096x6) ![0, 0] S4096x6.size inb_S4096x6_S4096x6_0_0
abbrev rS0 : Rect S3x64 := Rect.unit (s := S3x64) ![0, 0] S3x64.size inb_S3x64_S3x64_0_0
abbrev rS1 : Rect S64x64 := Rect.unit (s := S64x64) ![0, 0] S64x64.size inb_S64x64_S64x64_0_0
abbrev rS2 : Rect S64x16 := Rect.unit (s := S64x16) ![0, 0] S64x16.size inb_S64x16_S64x16_0_0
abbrev rC0 : Rect S18x192 := Rect.unit (s := S18x192) ![0, 0] S18x192.size inb_S18x192_S18x192_0_0
abbrev rC : Rect S192x192 := Rect.unit (s := S192x192) ![0, 0] S192x192.size inb_S192x192_S192x192_0_0
abbrev rRgb : Rect S4096x193 := Rect.unit (s := S4096x193) ![0, 0] S4096x192.size inb_S4096x193_S4096x192_0_0
abbrev rSig : Rect S4096x193 := Rect.unit (s := S4096x193) ![0, 192] S4096x1.size inb_S4096x193_S4096x1_0_192

/-! ## What the body leaves in the output window's buffer -/

/-- The output's staging buffer after the body, from the input blocks: its two stores as pieces, the later first. -/
def outBlock (x0 : Vec F S4096x6 .f32) (x1 : Vec F S3x64 .bf16) (x2 : Vec F S64x64 .bf16) (x3 : Vec F S64x16 .bf16)
    (x4 : Vec F S18x192 .bf16) (x5 x6 : Vec F S192x192 .bf16) : Vec F S4096x193 .f32 :=
  View.canon [⟨rSig, k0_pay3 (View.ld x0 rX) (View.ld x1 rS0) (View.ld x2 rS1) (View.ld x3 rS2)⟩,
    ⟨rRgb, k0_pay1 (k0_pay4 (View.ld x0 rX) (View.ld x1 rS0) (View.ld x2 rS1) (View.ld x3 rS2) (View.ld x4 rC0) (View.ld x5 rC)) (View.ld x6 rC)⟩]

/-- The two stores cover the block: a column below 192 lies in the wide store, column 192 in the narrow one. -/
theorem cover_out (p0 : Vec F S4096x1 .f32) (p1 : Vec F S4096x192 .f32) (y : S4096x193.Idx) :
    ∃ pc ∈ ([⟨rSig, p0⟩, ⟨rRgb, p1⟩] : List (View.Piece (Elt F) S4096x193 .f32)), y ∈ pc.1.set := by
  have h0 : (y 0).val < 4096 := (y 0).isLt
  have h1 : (y 1).val < 193 := (y 1).isLt
  by_cases hc : (y 1).val < 192
  · refine ⟨⟨rRgb, p1⟩, by simp, ?_⟩
    rw [Rect.mem_set_unit]
    intro a
    match a with
    | ⟨0, _⟩ => exact ⟨Nat.zero_le _, by show (y 0).val < 0 + 4096; omega⟩
    | ⟨1, _⟩ => exact ⟨Nat.zero_le _, by show (y 1).val < 0 + 192; omega⟩
  · refine ⟨⟨rSig, p0⟩, by simp, ?_⟩
    rw [Rect.mem_set_unit]
    intro a
    match a with
    | ⟨0, _⟩ => exact ⟨Nat.zero_le _, by show (y 0).val < 0 + 4096; omega⟩
    | ⟨1, _⟩ => exact ⟨by show 192 ≤ (y 1).val; omega, by show (y 1).val < 192 + 1; omega⟩

end Cert.KernelIdeal.Frm

end
-- ==== Proof.FrameBodyI.lean ====
/-
  The body's triple, the pipeline's proof data and the frame run of `KernelIdeal`'s @main, at any float instance.
-/
import proofs.«111896_j40312563040834_2_alg».proof.Proof.FrameSetupI

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on whole staging memrefs, the seven inputs' at read contents `x0 … x6` and the output's at anything,
    runs to the continuation holding the inputs' as they were and the output's at `outBlock` of them: the two loads
    of the output buffer bind values nothing reads, and the two stores cover it. -/
theorem sound_kernel (c : Dev nD) (E : Set ℕ) (i : grid0.Coords) (arg1 : Memref sig .tc .vmem S4096x6 .f32) (harg1 : arg1.IsWhole) (arg2 : Memref sig .tc .vmem S3x64 .bf16) (harg2 : arg2.IsWhole) (arg3 : Memref sig .tc .vmem S64x64 .bf16) (harg3 : arg3.IsWhole) (arg4 : Memref sig .tc .vmem S64x16 .bf16) (harg4 : arg4.IsWhole) (arg5 : Memref sig .tc .vmem S18x192 .bf16) (harg5 : arg5.IsWhole) (arg6 : Memref sig .tc .vmem S192x192 .bf16) (harg6 : arg6.IsWhole) (arg7 : Memref sig .tc .vmem S192x192 .bf16) (harg7 : arg7.IsWhole) (arg8 : Memref sig .tc .vmem S4096x193 .f32) (harg8 : arg8.IsWhole)
    (x0 : Vec F S4096x6 .f32) (x1 : Vec F S3x64 .bf16) (x2 : Vec F S64x64 .bf16) (x3 : Vec F S64x16 .bf16) (x4 : Vec F S18x192 .bf16) (x5 x6 : Vec F S192x192 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _ _)

end Cert.KernelIdeal.Frm

end
-- ==== Proof.FrameRunI.lean ====
/-
  The pipeline's proof data and the frame run of `KernelIdeal`'s @main, at any float instance: at every grid point each
  input's staging buffer holds its block and the body leaves the output's at `outBlock` of the seven input blocks;
  the launch theorem turns the body's triple into the run, after which the output array is what the 256 points wrote
  back and every argument array is as launched.
-/
import proofs.«111896_j40312563040834_2_alg».proof.Proof.FrameBodyI

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at point `t` each input's buffer at its block and the
    output's at `outBlock` of the input blocks; the scoped rest and the generator register untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    every array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the output array is what the points wrote back. -/
theorem post7 (r : PUnit × MemSt nD τ sig (Elt F)) (h : Pipeline.FramePost cfgs (dats m) 0 (V m) r) (c : Dev nD) :
    r.2.mem ((c : Thread nD τ).loc main_v17) = (dats m 0 c).arrAt 7 cfg0.N :=
  (h c).1 7

/-- The rows argument is staged by input window 0 and never written back; -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_unwritten m c main_arg0 (by decide))))
/-- the weight arguments are staged by no window (the windows stage the copies the host operations made). -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_unwritten m c main_arg1 (by decide))
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_unwritten m c main_arg2 (by decide))
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_unwritten m c main_arg3 (by decide))
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_unwritten m c main_arg4 (by decide))
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_unwritten m c main_arg5 (by decide))
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_unwritten m c main_arg6 (by decide))
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_unwritten m c main_arg7 (by decide))
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_unwritten m c main_arg8 (by decide))
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_unwritten m c main_arg9 (by decide))
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_unwritten m c main_arg10 (by decide))
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_unwritten m c main_arg11 (by decide))
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_unwritten m c main_arg12 (by decide))

/-- The run with the output array named and the arguments unchanged. -/
theorem run_blocks : θ_run defs (onTc (τ := τ) (main (F := F))) ⟨m, fun _ => 0, ρ⟩ fun r => ∀ c : Dev nD,
      r.2.mem ((c : Thread nD τ).loc main_v17) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

/-- The frame: @main runs to the end and leaves every argument array as launched. -/
theorem frame : θ_run defs (onTc (τ := τ) (main (F := F))) ⟨m, fun _ => 0, ρ⟩ fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => (h c).2) (run_blocks m ρ)

end Cert.KernelIdeal.Frm

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.RowNets.lean ====
/-
  One row of the network, as mathematics on the extended reals.

  A bias-free linear layer sends a row `h` to `j ↦ Σ_i h i · W i j`; the rectifier is `max · 0` entry by entry;
  a three-layer net is linear, rectifier, linear, rectifier, linear. The density net maps the first three entries of
  a six-entry input row to sixteen numbers; the last fifteen of these, behind the row's other three entries, are the
  eighteen inputs of three colour nets. The output row is the three colour nets' sixty-four outputs each, then the
  density net's first output: 193 entries.

  The same row can be computed with the three colour nets FUSED into one net of width 192: the first layers' weight
  matrices set side by side, the later layers' set on the diagonal of a 192 × 192 matrix whose other entries are zero.
  A sum against a column of such a matrix keeps only the 64 terms of the column's own diagonal block — every other term
  is a product with zero, which is zero for every extended real, infinite ones included — so no finiteness is needed.
-/
import Mathlib.Data.EReal.Basic
import Mathlib.Algebra.BigOperators.Fin
import proofs.«111896_j40312563040834_2_alg».proof.Proof.LibTileSum

noncomputable section

namespace RowNets

open Finset

/-- A bias-free linear layer on one row. -/
def lin {n k : ℕ} (h : Fin n → EReal) (W : Fin n → Fin k → EReal) : Fin k → EReal := fun j => ∑ i, h i * W i j

/-- The rectifier, entry by entry. -/
def relu {n : ℕ} (v : Fin n → EReal) : Fin n → EReal := fun j => max (v j) 0

/-- Linear, rectifier, linear, rectifier, linear. -/
def mlp3 {a b c d : ℕ} (h : Fin a → EReal) (W0 : Fin a → Fin b → EReal) (W1 : Fin b → Fin c → EReal)
    (W2 : Fin c → Fin d → EReal) : Fin d → EReal :=
  lin (relu (lin (relu (lin h W0)) W1)) W2

/-- Entry `q` of block `b` among three blocks of 64. -/
abbrev at3 (b : Fin 3) (q : Fin 64) : Fin 192 := TileSum.idx (show 3 * 64 = 192 from rfl) b q

/-- Against matrices set side by side, a block's outputs are that block's matrix's. -/
theorem lin_side {n : ℕ} (h : Fin n → EReal) (Wc : Fin n → Fin 192 → EReal) (W : Fin 3 → Fin n → Fin 64 → EReal)
    (hW : ∀ k b q, Wc k (at3 b q) = W b k q) (b : Fin 3) (q : Fin 64) :
    lin h Wc (at3 b q) = lin h (W b) q := by
  unfold lin
  exact sum_congr rfl fun k _ => by rw [hW]

/-- Against matrices set on the diagonal, a block's outputs are that block's matrix's of that block's inputs: the
    terms of the other blocks are products with zero. -/
theorem lin_diag (a : Fin 192 → EReal) (D : Fin 192 → Fin 192 → EReal) (M : Fin 3 → Fin 64 → Fin 64 → EReal)
    (hD : ∀ (b' b : Fin 3) (p q : Fin 64), D (at3 b' p) (at3 b q) = if b' = b then M b p q else 0)
    (b : Fin 3) (q : Fin 64) :
    lin a D (at3 b q) = lin (fun p => a (at3 b p)) (M b) q := by
  unfold lin
  rw [TileSum.sum_axis (show 3 * 64 = 192 from rfl), sum_eq_single b]
  · exact sum_congr rfl fun p _ => by rw [hD, if_pos rfl]
  · intro b' _ hne
    exact sum_eq_zero fun p _ => by rw [hD, if_neg hne, mul_zero]
  · intro h; exact absurd (mem_univ b) h

/-- The fused net of width 192 computes, in block `b`, colour net `b`. -/
theorem fused_eq (hc : Fin 18 → EReal) (W0c : Fin 18 → Fin 192 → EReal) (D1 D2 : Fin 192 → Fin 192 → EReal)
    (W0 : Fin 3 → Fin 18 → Fin 64 → EReal) (W1 W2 : Fin 3 → Fin 64 → Fin 64 → EReal)
    (h0 : ∀ k b q, W0c k (at3 b q) = W0 b k q)
    (h1 : ∀ (b' b : Fin 3) (p q : Fin 64), D1 (at3 b' p) (at3 b q) = if b' = b then W1 b p q else 0)
    (h2 : ∀ (b' b : Fin 3) (p q : Fin 64), D2 (at3 b' p) (at3 b q) = if b' = b then W2 b p q else 0)
    (b : Fin 3) (q : Fin 64) :
    mlp3 hc W0c D1 D2 (at3 b q) = mlp3 hc (W0 b) (W1 b) (W2 b) q := by
  unfold mlp3
  rw [lin_diag _ D2 W2 h2]
  congr 1
  funext p
  show max (lin (relu (lin hc W0c)) D1 (at3 b p)) 0 = max (lin (relu (lin hc (W0 b))) (W1 b) p) 0
  rw [lin_diag _ D1 W1 h1]
  congr 2
  funext p'
  show max (lin hc W0c (at3 b p')) 0 = max (lin hc (W0 b) p') 0
  rw [lin_side hc W0c W0 h0]

/-! ## The rows -/

/-- The first three entries of an input row: the density net's inputs. -/
def pts (x : Fin 6 → EReal) : Fin 3 → EReal := fun k => x ⟨k.val, by have := k.isLt; omega⟩

/-- The density net's sixteen outputs. -/
def density (x : Fin 6 → EReal) (S0 : Fin 3 → Fin 64 → EReal) (S1 : Fin 64 → Fin 64 → EReal) (S2 : Fin 64 → Fin 16 → EReal) :
    Fin 16 → EReal := mlp3 (pts x) S0 S1 S2

/-- The colour nets' eighteen inputs: the row's last three entries, then the density net's last fifteen outputs. -/
def colourIn (x : Fin 6 → EReal) (g : Fin 16 → EReal) : Fin 18 → EReal := fun k =>
  if h : k.val < 3 then x ⟨3 + k.val, by omega⟩ else g ⟨1 + (k.val - 3), by have := k.isLt; omega⟩

/-- The output row with the colour nets fused. -/
def fusedRow (x : Fin 6 → EReal) (S0 : Fin 3 → Fin 64 → EReal) (S1 : Fin 64 → Fin 64 → EReal) (S2 : Fin 64 → Fin 16 → EReal)
    (W0c : Fin 18 → Fin 192 → EReal) (D1 D2 : Fin 192 → Fin 192 → EReal) : Fin 193 → EReal := fun j =>
  if h : j.val < 192 then mlp3 (colourIn x (density x S0 S1 S2)) W0c D1 D2 ⟨j.val, h⟩ else density x S0 S1 S2 0

/-- The output row with three separate colour nets. -/
def plainRow (x : Fin 6 → EReal) (S0 : Fin 3 → Fin 64 → EReal) (S1 : Fin 64 → Fin 64 → EReal) (S2 : Fin 64 → Fin 16 → EReal)
    (W0 : Fin 3 → Fin 18 → Fin 64 → EReal) (W1 W2 : Fin 3 → Fin 64 → Fin 64 → EReal) : Fin 193 → EReal := fun j =>
  if h : j.val < 192 then
    mlp3 (colourIn x (density x S0 S1 S2)) (W0 ⟨j.val / 64, by omega⟩) (W1 ⟨j.val / 64, by omega⟩) (W2 ⟨j.val / 64, by omega⟩)
      ⟨j.val % 64, Nat.mod_lt _ (by decide)⟩
  else density x S0 S1 S2 0

/-- Entry `b·64 + q` of the plain row is output `q` of colour net `b`. -/
theorem plainRow_at (x : Fin 6 → EReal) (S0 : Fin 3 → Fin 64 → EReal) (S1 : Fin 64 → Fin 64 → EReal) (S2 : Fin 64 → Fin 16 → EReal)
    (W0 : Fin 3 → Fin 18 → Fin 64 → EReal) (W1 W2 : Fin 3 → Fin 64 → Fin 64 → EReal) (b : Fin 3) (q : Fin 64) (j : Fin 193)
    (hj : j.val = b.val * 64 + q.val) :
    plainRow x S0 S1 S2 W0 W1 W2 j = mlp3 (colourIn x (density x S0 S1 S2)) (W0 b) (W1 b) (W2 b) q := by
  have hb := b.isLt
  have hq := q.isLt
  have h : j.val < 192 := by omega
  unfold plainRow
  rw [dif_pos h]
  have eb : (⟨j.val / 64, by omega⟩ : Fin 3) = b := Fin.ext (by show j.val / 64 = b.val; omega)
  have eq : (⟨j.val % 64, Nat.mod_lt _ (by decide)⟩ : Fin 64) = q := Fin.ext (by show j.val % 64 = q.val; omega)
  rw [eb, eq]

/-- The last entry of the plain row is the density net's first output. -/
theorem plainRow_last (x : Fin 6 → EReal) (S0 : Fin 3 → Fin 64 → EReal) (S1 : Fin 64 → Fin 64 → EReal) (S2 : Fin 64 → Fin 16 → EReal)
    (W0 : Fin 3 → Fin 18 → Fin 64 → EReal) (W1 W2 : Fin 3 → Fin 64 → Fin 64 → EReal) (j : Fin 193) (hj : j.val = 192) :
    plainRow x S0 S1 S2 W0 W1 W2 j = density x S0 S1 S2 0 := by
  unfold plainRow
  rw [dif_neg (by omega)]

/-- The two rows are equal. -/
theorem fusedRow_eq (x : Fin 6 → EReal) (S0 : Fin 3 → Fin 64 → EReal) (S1 : Fin 64 → Fin 64 → EReal) (S2 : Fin 64 → Fin 16 → EReal)
    (W0c : Fin 18 → Fin 192 → EReal) (D1 D2 : Fin 192 → Fin 192 → EReal)
    (W0 : Fin 3 → Fin 18 → Fin 64 → EReal) (W1 W2 : Fin 3 → Fin 64 → Fin 64 → EReal)
    (h0 : ∀ k b q, W0c k (at3 b q) = W0 b k q)
    (h1 : ∀ (b' b : Fin 3) (p q : Fin 64), D1 (at3 b' p) (at3 b q) = if b' = b then W1 b p q else 0)
    (h2 : ∀ (b' b : Fin 3) (p q : Fin 64), D2 (at3 b' p) (at3 b q) = if b' = b then W2 b p q else 0) :
    fusedRow x S0 S1 S2 W0c D1 D2 = plainRow x S0 S1 S2 W0 W1 W2 := by
  funext j
  unfold fusedRow plainRow
  by_cases h : j.val < 192
  · rw [dif_pos h, dif_pos h]
    have e : (⟨j.val, h⟩ : Fin 192) = at3 ⟨j.val / 64, by omega⟩ ⟨j.val % 64, Nat.mod_lt _ (by decide)⟩ :=
      Fin.ext (by show j.val = j.val / 64 * 64 + j.val % 64; omega)
    rw [e]
    exact fused_eq _ W0c D1 D2 W0 W1 W2 h0 h1 h2 _ _
  · rw [dif_neg h, dif_neg h]

end RowNets

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowRead.lean ====
/-
  Rows of matrices, read through the operations a row-wise network is printed with, at the ideal values.

  A value of shape [A, n] is read one row at a time: `rowOf X p` is row `p` as a function of the column, and
  `mat W` is a weight matrix as a function of row and column. Each lemma says what one operation does to a row:
  a plain matrix product (a kernel's `tpu.matmul` into the zero accumulator, the host's `dot_general`) is the
  linear layer `j ↦ Σ_i h i · W i j` of the row; a maximum with the zero splat is the rectifier of the row; a
  change of float format and a shape cast to the same shape change nothing; a slice of columns takes those columns
  of the row; two matrices set side by side give the first's row followed by the second's.
-/
import Idealize.ShloMosaic.PureOps.Ideal.Laws
import Idealize.ShloMosaic.Lib.ValueIdx
import Idealize.ShloMosaic.Lib.Pipeline.Value
import proofs.«111896_j40312563040834_2_alg».proof.Proof.LibPlainMatmul

noncomputable section

namespace RowRead

open Idealize.ShloMosaic Idealize.ShloMosaic.ValueIdx Finset

/-- Row `p` of an [A, n] value, as a function of the column. -/
def rowOf {A n : ℕ} (X : (⟨2, ![A, n]⟩ : Shape).Idx → EReal) (p : Fin A) : Fin n → EReal := fun k => X (ix2 p k)

/-- A matrix as a function of row and column. -/
def mat {a b : ℕ} (W : (⟨2, ![a, b]⟩ : Shape).Idx → EReal) : Fin a → Fin b → EReal := fun i j => W (ix2 i j)

/-- Three matrices of one shape, by their place. -/
def mats3 {a b : ℕ} (u0 u1 u2 : (⟨2, ![a, b]⟩ : Shape).Idx → EReal) : Fin 3 → Fin a → Fin b → EReal :=
  fun n => mat (![u0, u1, u2] n)

/-- A kernel's plain [A, K] × [K, B] product into the zero accumulator: row `p` is the linear layer of the left
    operand's row `p`. -/
theorem rowOf_matmul {A K B : ℕ} {φ₁ φ₂ : FTy} (D : DotDims ⟨2, ![A, K]⟩ ⟨2, ![K, B]⟩ ⟨2, ![A, B]⟩) (hD : D = DotDims.plain A K B)
    (prec : Option ContractPrecision) (lhs : FVec Ideal ⟨2, ![A, K]⟩ φ₁) (rhs : FVec Ideal ⟨2, ![K, B]⟩ φ₂) (p : Fin A) :
    rowOf (FloatOps.matmul D prec lhs rhs (constant ⟨2, ![A, B]⟩ .f32 0x00000000#32)) p = fun j => ∑ i, rowOf lhs p i * mat rhs i j := by
  subst hD
  funext j
  exact matmul_plain_zero_apply A K B prec lhs rhs p j

/-- The host's plain [A, K] × [K, B] `dot_general`: the same. -/
theorem rowOf_dotGeneral {A K B : ℕ} {φ₁ φ₂ : FTy} (D : DotDims ⟨2, ![A, K]⟩ ⟨2, ![K, B]⟩ ⟨2, ![A, B]⟩) (hD : D = DotDims.plain A K B)
    (prec : Option ContractPrecision) (sched : HostSchedule) (lhs : FVec Ideal ⟨2, ![A, K]⟩ φ₁) (rhs : FVec Ideal ⟨2, ![K, B]⟩ φ₂) (p : Fin A) :
    rowOf (FloatOps.dotGeneral D prec sched lhs rhs) p = fun j => ∑ i, rowOf lhs p i * mat rhs i j := by
  subst hD
  funext j
  show FloatOps.dotGeneral (DotDims.plain A K B) prec sched lhs rhs (ix2 p j) = ∑ k : Fin K, lhs (ix2 p k) * rhs (ix2 k j)
  rw [Ideal.dotGeneral_apply, ← Equiv.sum_comp (contrEquiv1 (DotDims.plain A K B) K rfl rfl).symm]
  refine sum_congr rfl fun k _ => ?_
  rw [plain_lhsIdx, plain_rhsIdx]

/-- A maximum with a value that is zero everywhere is the rectifier of the row. -/
theorem rowOf_max_zero {A n : ℕ} (v z : (⟨2, ![A, n]⟩ : Shape).Idx → EReal) (hz : ∀ i, z i = 0) (p : Fin A) :
    rowOf (fun i => max (v i) (z i)) p = fun j => max (rowOf v p j) 0 := by
  funext j
  show max (v (ix2 p j)) (z (ix2 p j)) = max (v (ix2 p j)) 0
  rw [hz]

/-- A kernel's maximum with the splat of a scalar that is zero: the rectifier of the row. -/
theorem rowOf_max_splat {A n : ℕ} {φ : FTy} (v : FVec Ideal ⟨2, ![A, n]⟩ φ) (z : Ideal φ) (hz : z = (0 : EReal)) (p : Fin A) :
    rowOf (maximumf v (broadcast ⟨2, ![A, n]⟩ z)) p = fun j => max (rowOf v p j) 0 :=
  rowOf_max_zero v (broadcast ⟨2, ![A, n]⟩ z) (fun _ => hz) p

/-- The host's maximum with a scalar zero constant broadcast to the shape: the same. -/
theorem rowOf_max_host {A n : ℕ} (v : FVec Ideal ⟨2, ![A, n]⟩ .f32)
    (hb : (⟨0, ![]⟩ : Shape).BroadcastsInDim ⟨2, ![A, n]⟩ (![] : Fin 0 → Fin 2)) (p : Fin A) :
    rowOf (maximumf v (broadcastInDim ⟨2, ![A, n]⟩ ![] hb (constant (F := Ideal) ⟨0, ![]⟩ .f32 0x00000000#32))) p
      = fun j => max (rowOf v p j) 0 :=
  rowOf_max_zero v _ (fun i => by
    rw [broadcastInDim_apply ![] hb _ i ix0 (fun a => a.elim0)]
    exact Ideal.ofBits_zero_f32) p

/-- A change of float format changes nothing. -/
theorem rowOf_truncf {A n : ℕ} {φ ψ : FTy} (v : FVec Ideal ⟨2, ![A, n]⟩ φ) (h : ψ.bits < φ.bits) (p : Fin A) :
    rowOf (truncf ψ v h : FVec Ideal ⟨2, ![A, n]⟩ ψ) p = rowOf v p := rfl

/-- A slice of `n` columns from column `o` on takes those columns of the row. -/
theorem rowOf_slice {A N n : ℕ} (o : ℕ) (ho : o + n ≤ N) (X : (⟨2, ![A, N]⟩ : Shape).Idx → EReal)
    (h : (⟨2, ![A, N]⟩ : Shape).Slices ![0, o] ⟨2, ![A, n]⟩) (p : Fin A) :
    rowOf (extractStridedSlice ⟨2, ![A, n]⟩ ![0, o] X h) p = fun k => rowOf X p ⟨o + k.val, by have := k.isLt; omega⟩ := by
  funext k
  exact extractStridedSlice_apply ![0, o] X h (ix2 p k) (ix2 p ⟨o + k.val, by have := k.isLt; omega⟩) (fun a => by
    match a with
    | ⟨0, _⟩ => show p.val = 0 + p.val; omega
    | ⟨1, _⟩ => rfl)

/-- A slice of the first `n` columns. -/
theorem rowOf_slice_front {A N n : ℕ} (ho : n ≤ N) (X : (⟨2, ![A, N]⟩ : Shape).Idx → EReal)
    (h : (⟨2, ![A, N]⟩ : Shape).Slices ![0, 0] ⟨2, ![A, n]⟩) (p : Fin A) :
    rowOf (extractStridedSlice ⟨2, ![A, n]⟩ ![0, 0] X h) p = fun k => rowOf X p ⟨k.val, by have := k.isLt; omega⟩ := by
  rw [rowOf_slice 0 (by omega)]
  funext k
  exact congrArg (fun q => X (ix2 p q)) (Fin.ext (Nat.zero_add _))

/-- Two matrices set side by side: the first's row, then the second's. -/
theorem rowOf_beside {A n₁ n₂ N : ℕ} (x₁ : (⟨2, ![A, n₁]⟩ : Shape).Idx → EReal) (x₂ : (⟨2, ![A, n₂]⟩ : Shape).Idx → EReal)
    (h : Shape.Concatenates [(⟨2, ![A, n₁]⟩ : Shape), ⟨2, ![A, n₂]⟩] ⟨2, ![A, N]⟩ 1) (hN : n₁ + n₂ = N) (p : Fin A) :
    rowOf (concatenate ⟨2, ![A, N]⟩ 1 [⟨⟨2, ![A, n₁]⟩, x₁⟩, ⟨⟨2, ![A, n₂]⟩, x₂⟩] h) p
      = fun k => if hk : k.val < n₁ then rowOf x₁ p ⟨k.val, hk⟩ else rowOf x₂ p ⟨k.val - n₁, by have := k.isLt; omega⟩ := by
  funext k
  by_cases hk : k.val < n₁
  · rw [dif_pos hk]
    exact concatenate_pair_apply_left 1 x₁ x₂ h (ix2 p k) rfl (ix2 p ⟨k.val, hk⟩) (fun b => by
      match b with
      | ⟨0, _⟩ => rfl
      | ⟨1, _⟩ => rfl)
  · rw [dif_neg hk]
    exact concatenate_pair_apply_right 1 x₁ x₂ h (ix2 p k) rfl rfl (ix2 p ⟨k.val - n₁, by have := k.isLt; omega⟩) (fun b hb => by
      match b with
      | ⟨0, _⟩ => rfl
      | ⟨1, _⟩ => exact absurd rfl hb) (by show k.val - n₁ + n₁ = k.val; omega)

end RowRead

end
-- ==== Proof.KernelRow.lean ====
/-
  What the kernel's body computes, row by row, at the ideal values: row `p` of the sixteen-column density payload is
  the density net of row `p` of the input block; row `p` of the 192-column payload is the fused colour net of the
  colour inputs built from that row; and the one-column payload is the density net's first output.
-/
import proofs.«111896_j40312563040834_2_alg».proof.Proof.Gen.KernelIdeal.Skeleton
import proofs.«111896_j40312563040834_2_alg».proof.Proof.RowNets
import proofs.«111896_j40312563040834_2_alg».proof.Proof.LibRowRead

noncomputable section

namespace Cert.KernelIdeal.RowValue

open Cert.KernelIdeal Cert.KernelIdeal.Gen Idealize.ShloMosaic Idealize.ShloMosaic.ValueIdx RowNets RowRead

/-- The scalar the body takes its maxima with is zero. -/
theorem zero_word : Scalar.ofBits (F := Ideal) .f32 0x00000000#32 = (0 : EReal) := Ideal.ofBits_zero_f32

/-- Row `p` of the density payload is the density net of row `p` of the input block. -/
theorem pay2_row (x0 : Vec Ideal S4096x6 .f32) (x1 : Vec Ideal S3x64 .bf16) (x2 : Vec Ideal S64x64 .bf16) (x3 : Vec Ideal S64x16 .bf16)
    (p : Fin 4096) :
    rowOf (k0_pay2 (F := Ideal) x0 x1 x2 x3) p = density (rowOf x0 p) (mat x1) (mat x2) (mat x3) := by
  unfold k0_pay2
  dsimp only
  rw [shapeCast_self, shapeCast_self, shapeCast_self]
  rw [rowOf_matmul _ (rfl : dot_S4096x64_S64x16_S4096x16_1_0_0_1_n_n = DotDims.plain 4096 64 16),
    rowOf_truncf, rowOf_max_splat _ _ zero_word,
    rowOf_matmul _ (rfl : dot_S4096x64_S64x64_S4096x64_1_0_0_1_n_n = DotDims.plain 4096 64 64),
    rowOf_truncf, rowOf_max_splat _ _ zero_word,
    rowOf_matmul _ (rfl : dot_S4096x3_S3x64_S4096x64_1_0_0_1_n_n = DotDims.plain 4096 3 64),
    rowOf_truncf, rowOf_slice_front (by decide)]
  rfl

/-- The one-column payload: the density net's first output. -/
theorem pay3_row (x0 : Vec Ideal S4096x6 .f32) (x1 : Vec Ideal S3x64 .bf16) (x2 : Vec Ideal S64x64 .bf16) (x3 : Vec Ideal S64x16 .bf16)
    (p : Fin 4096) (k : Fin 1) :
    k0_pay3 (F := Ideal) x0 x1 x2 x3 (ix2 p k) = density (rowOf x0 p) (mat x1) (mat x2) (mat x3) 0 := by
  show rowOf (k0_pay3 (F := Ideal) x0 x1 x2 x3) p k = _
  unfold k0_pay3
  dsimp only
  rw [rowOf_slice_front (by decide), pay2_row]
  exact congrArg _ (Fin.ext (by show k.val = 0; omega))

/-- Row `p` of the second hidden layer of the fused colour net. -/
theorem pay4_row (x0 : Vec Ideal S4096x6 .f32) (x1 : Vec Ideal S3x64 .bf16) (x2 : Vec Ideal S64x64 .bf16) (x3 : Vec Ideal S64x16 .bf16)
    (x4 : Vec Ideal S18x192 .bf16) (x5 : Vec Ideal S192x192 .bf16) (p : Fin 4096) :
    rowOf (k0_pay4 (F := Ideal) x0 x1 x2 x3 x4 x5) p
      = relu (lin (relu (lin (colourIn (rowOf x0 p) (density (rowOf x0 p) (mat x1) (mat x2) (mat x3))) (mat x4))) (mat x5)) := by
  unfold k0_pay4
  dsimp only
  rw [shapeCast_self, shapeCast_self]
  rw [rowOf_truncf, rowOf_max_splat _ _ zero_word,
    rowOf_matmul _ (rfl : dot_S4096x192_S192x192_S4096x192_1_0_0_1_n_n = DotDims.plain 4096 192 192),
    rowOf_truncf, rowOf_max_splat _ _ zero_word,
    rowOf_matmul _ (rfl : dot_S4096x18_S18x192_S4096x192_1_0_0_1_n_n = DotDims.plain 4096 18 192),
    rowOf_truncf, rowOf_beside _ _ _ (by decide), rowOf_slice 3 (by decide), rowOf_slice 1 (by decide), pay2_row]
  rfl

/-- Row `p` of the 192-column payload is the fused colour net's output. -/
theorem pay1_row (v34 : FVec Ideal S4096x192 .bf16) (x6 : Vec Ideal S192x192 .bf16) (p : Fin 4096) :
    rowOf (k0_pay1 (F := Ideal) v34 x6) p = lin (rowOf v34 p) (mat x6) := by
  unfold k0_pay1
  dsimp only
  rw [shapeCast_self, rowOf_matmul _ (rfl : dot_S4096x192_S192x192_S4096x192_1_0_0_1_n_n = DotDims.plain 4096 192 192)]
  rfl

end Cert.KernelIdeal.RowValue

end
-- ==== Proof.KernelValue.lean ====
/-
  The kernel's output array after the run, as one function of the arrays the region finds: row `r`, column `j` is
  entry `j` of the fused output row computed from row `r` of the input array and the six weight arrays. A grid
  point's output block is that function on rows `4096·t … 4096·t + 4095`: the input window moves with the output window
  along the rows, the weight windows are whole arrays at every point, and the 256 blocks tile the array.
-/
import proofs.«111896_j40312563040834_2_alg».proof.Proof.FrameRunI
import proofs.«111896_j40312563040834_2_alg».proof.Proof.KernelRow
import Idealize.ShloMosaic.Lib.Pipeline.Value

set_option maxRecDepth 16384

noncomputable section

namespace Cert.KernelIdeal.ArrValue

open Cert.KernelIdeal Cert.KernelIdeal.Gen Cert.KernelIdeal.Frm Cert.KernelIdeal.RowValue
open Idealize.ShloMosaic Idealize.ShloMosaic.TcCoe Idealize.SL.Sem Idealize.ShloMosaic.ValueIdx RowNets RowRead
open Idealize.ShloMosaic.Pipeline (Dat)

variable (m : (ℓ : Loc nD τ sig) → Buf (Elt Ideal) ℓ) (ρ : Dev nD → PrngReg)

/-- The output array as one function of the input array and the six weight arrays the kernel is handed. -/
def rowsOut (X : S1048576x6.Idx → EReal) (w1 : S3x64.Idx → EReal) (w2 : S64x64.Idx → EReal) (w3 : S64x16.Idx → EReal)
    (w4 : S18x192.Idx → EReal) (w5 w6 : S192x192.Idx → EReal) : S1048576x193.Idx → EReal :=
  fun i => fusedRow (rowOf X (i 0)) (mat w1) (mat w2) (mat w3) (mat w4) (mat w5) (mat w6) (i 1)

theorem hz : (![0, 0] : Fin 2 → Nat) = fun _ => 0 := funext fun a => by fin_cases a <;> rfl

/-- What the body leaves in the output block, entry by entry: the fused output row of the input block's row. -/
theorem outBlock_apply (x0 : Vec Ideal S4096x6 .f32) (x1 : Vec Ideal S3x64 .bf16) (x2 : Vec Ideal S64x64 .bf16) (x3 : Vec Ideal S64x16 .bf16)
    (x4 : Vec Ideal S18x192 .bf16) (x5 x6 : Vec Ideal S192x192 .bf16) (y : S4096x193.Idx) :
    outBlock (F := Ideal) x0 x1 x2 x3 x4 x5 x6 y = fusedRow (rowOf x0 (y 0)) (mat x1) (mat x2) (mat x3) (mat x4) (mat x5) (mat x6) (y 1) := by
  unfold outBlock
  refine View.canon_apply_of_pieces (Val := Elt Ideal) (fun y : S4096x193.Idx => fusedRow (rowOf x0 (y 0)) (mat x1) (mat x2) (mat x3) (mat x4) (mat x5) (mat x6) (y 1)) _ ?_ y (cover_out _ _ y)
  intro pc hpc x
  simp only [List.mem_cons, List.not_mem_nil, or_false] at hpc
  rcases hpc with rfl | rfl
  · dsimp only
    rw [View.ld_unit_zero (S := S4096x6) hz, View.ld_unit_zero (S := S3x64) hz, View.ld_unit_zero (S := S64x64) hz,
      View.ld_unit_zero (S := S64x16) hz]
    obtain ⟨p, k, rfl⟩ : ∃ (p : Fin 4096) (k : Fin 1), x = ix2 p k := ⟨x 0, x 1, eq_ix2 x⟩
    rw [pay3_row]
    have e0 : (rSig.emb (ix2 p k)) 0 = p := Fin.ext (by show 0 + 1 * p.val = p.val; omega)
    rw [e0]
    unfold fusedRow
    rw [dif_neg (by show ¬ (192 + 1 * k.val < 192); omega)]
  · dsimp only
    rw [View.ld_unit_zero (S := S4096x6) hz, View.ld_unit_zero (S := S3x64) hz, View.ld_unit_zero (S := S64x64) hz,
      View.ld_unit_zero (S := S64x16) hz, View.ld_unit_zero (S := S18x192) hz, View.ld_unit_zero (S := S192x192) hz,
      View.ld_unit_zero (S := S192x192) hz]
    obtain ⟨p, k, rfl⟩ : ∃ (p : Fin 4096) (k : Fin 192), x = ix2 p k := ⟨x 0, x 1, eq_ix2 x⟩
    show rowOf (k0_pay1 (F := Ideal) _ x6) p k = _
    rw [pay1_row, pay4_row]
    have e0 : (rRgb.emb (ix2 p k)) 0 = p := Fin.ext (by show 0 + 1 * p.val = p.val; omega)
    rw [e0]
    unfold fusedRow
    have hk : ((rRgb.emb (ix2 p k)) 1).val < 192 := by show 0 + 1 * k.val < 192; have := k.isLt; omega
    rw [dif_pos hk]
    have e1 : (⟨((rRgb.emb (ix2 p k)) 1).val, hk⟩ : Fin 192) = k := Fin.ext (by show 0 + 1 * k.val = k.val; omega)
    rw [e1]
    rfl

end Cert.KernelIdeal.ArrValue

end
-- ==== Proof.KernelArray.lean ====
/-
  From blocks to the array. At grid point `t` the input window and the output window both sit on rows
  `4096·t … 4096·t + 4095` and on all their columns, and each weight window is its whole array; so what point `t`
  writes back is block `t` of one function of the arrays the region finds. The 256 blocks tile the output array
  (row `r` lies in block `r / 4096`), so after the run the output array is that function.
-/
import proofs.«111896_j40312563040834_2_alg».proof.Proof.KernelValue

set_option maxRecDepth 16384

noncomputable section

namespace Cert.KernelIdeal.ArrValue

open Cert.KernelIdeal Cert.KernelIdeal.Gen Cert.KernelIdeal.Frm Cert.KernelIdeal.RowValue
open Idealize.ShloMosaic Idealize.ShloMosaic.TcCoe Idealize.SL.Sem Idealize.ShloMosaic.ValueIdx RowNets RowRead
open Idealize.ShloMosaic.Pipeline (Dat)

variable (m : (ℓ : Loc nD τ sig) → Buf (Elt Ideal) ℓ) (ρ : Dev nD → PrngReg)

/-- The printed index maps over the grid: the input and the output window are at block row `t`, block column 0;
    every weight window is at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The output array as the function of the arrays the region finds. -/
def arr (c : Dev nD) : S1048576x193.Idx → EReal :=
  rowsOut (V m c main_arg0) (V m c main_v0) (V m c main_v1) (V m c main_v2) (V m c main_v4) (V m c main_v10) (V m c main_v16)

/-- Weight window 1's block is its whole array at every point. -/
theorem mat_iblk1 (c : Dev nD) (t : Fin cfg0.N) : mat (iblk m c 1 t) = mat (V m c main_v0) := by
  obtain ⟨-, -, -, -, e10, e11, e20, e21, e30, e31, e40, e41, e50, e51, e60, e61⟩ := idx_facts t
  funext i j
  show V m c main_v0 (((cfg0.win 1).blk t).view.emb (ix2 i j)) = V m c main_v0 (ix2 i j)
  refine congrArg _ (funext fun a => Fin.ext ?_)
  match a with
  | ⟨0, _⟩ => show win0_1.index t (0 : Fin 2) * 3 + 1 * i.val = i.val; omega
  | ⟨1, _⟩ => show win0_1.index t (1 : Fin 2) * 64 + 1 * j.val = j.val; omega
/-- Weight window 2's block is its whole array at every point. -/
theorem mat_iblk2 (c : Dev nD) (t : Fin cfg0.N) : mat (iblk m c 2 t) = mat (V m c main_v1) := by
  obtain ⟨-, -, -, -, e10, e11, e20, e21, e30, e31, e40, e41, e50, e51, e60, e61⟩ := idx_facts t
  funext i j
  show V m c main_v1 (((cfg0.win 2).blk t).view.emb (ix2 i j)) = V m c main_v1 (ix2 i j)
  refine congrArg _ (funext fun a => Fin.ext ?_)
  match a with
  | ⟨0, _⟩ => show win0_2.index t (0 : Fin 2) * 64 + 1 * i.val = i.val; omega
  | ⟨1, _⟩ => show win0_2.index t (1 : Fin 2) * 64 + 1 * j.val = j.val; omega
/-- Weight window 3's block is its whole array at every point. -/
theorem mat_iblk3 (c : Dev nD) (t : Fin cfg0.N) : mat (iblk m c 3 t) = mat (V m c main_v2) := by
  obtain ⟨-, -, -, -, e10, e11, e20, e21, e30, e31, e40, e41, e50, e51, e60, e61⟩ := idx_facts t
  funext i j
  show V m c main_v2 (((cfg0.win 3).blk t).view.emb (ix2 i j)) = V m c main_v2 (ix2 i j)
  refine congrArg _ (funext fun a => Fin.ext ?_)
  match a with
  | ⟨0, _⟩ => show win0_3.index t (0 : Fin 2) * 64 + 1 * i.val = i.val; omega
  | ⟨1, _⟩ => show win0_3.index t (1 : Fin 2) * 16 + 1 * j.val = j.val; omega
/-- Weight window 4's block is its whole array at every point. -/
theorem mat_iblk4 (c : Dev nD) (t : Fin cfg0.N) : mat (iblk m c 4 t) = mat (V m c main_v4) := by
  obtain ⟨-, -, -, -, e10, e11, e20, e21, e30, e31, e40, e41, e50, e51, e60, e61⟩ := idx_facts t
  funext i j
  show V m c main_v4 (((cfg0.win 4).blk t).view.emb (ix2 i j)) = V m c main_v4 (ix2 i j)
  refine congrArg _ (funext fun a => Fin.ext ?_)
  match a with
  | ⟨0, _⟩ => show win0_4.index t (0 : Fin 2) * 18 + 1 * i.val = i.val; omega
  | ⟨1, _⟩ => show win0_4.index t (1 : Fin 2) * 192 + 1 * j.val = j.val; omega
/-- Weight window 5's block is its whole array at every point. -/
theorem mat_iblk5 (c : Dev nD) (t : Fin cfg0.N) : mat (iblk m c 5 t) = mat (V m c main_v10) := by
  obtain ⟨-, -, -, -, e10, e11, e20, e21, e30, e31, e40, e41, e50, e51, e60, e61⟩ := idx_facts t
  funext i j
  show V m c main_v10 (((cfg0.win 5).blk t).view.emb (ix2 i j)) = V m c main_v10 (ix2 i j)
  refine congrArg _ (funext fun a => Fin.ext ?_)
  match a with
  | ⟨0, _⟩ => show win0_5.index t (0 : Fin 2) * 192 + 1 * i.val = i.val; omega
  | ⟨1, _⟩ => show win0_5.index t (1 : Fin 2) * 192 + 1 * j.val = j.val; omega
/-- Weight window 6's block is its whole array at every point. -/
theorem mat_iblk6 (c : Dev nD) (t : Fin cfg0.N) : mat (iblk m c 6 t) = mat (V m c main_v16) := by
  obtain ⟨-, -, -, -, e10, e11, e20, e21, e30, e31, e40, e41, e50, e51, e60, e61⟩ := idx_facts t
  funext i j
  show V m c main_v16 (((cfg0.win 6).blk t).view.emb (ix2 i j)) = V m c main_v16 (ix2 i j)
  refine congrArg _ (funext fun a => Fin.ext ?_)
  match a with
  | ⟨0, _⟩ => show win0_6.index t (0 : Fin 2) * 192 + 1 * i.val = i.val; omega
  | ⟨1, _⟩ => show win0_6.index t (1 : Fin 2) * 192 + 1 * j.val = j.val; omega

/-- Row `y 0` of the input block at point `t` is the input array's row under the output block's row `y 0`. -/
theorem row_iblk0 (c : Dev nD) (t : Fin cfg0.N) (y : S4096x193.Idx) :
    rowOf (iblk m c 0 t) (y 0) = rowOf (V m c main_arg0) ((((cfg0.win 7).blk t).view.emb y) 0) := by
  obtain ⟨e00, e01, e70, e71, -⟩ := idx_facts t
  funext k
  show V m c main_arg0 (((cfg0.win 0).blk t).view.emb (ix2 (y 0) k)) = V m c main_arg0 (ix2 ((((cfg0.win 7).blk t).view.emb y) 0) k)
  refine congrArg _ (funext fun a => Fin.ext ?_)
  match a with
  | ⟨0, _⟩ => show win0_0.index t (0 : Fin 2) * 4096 + 1 * (y 0).val = win0_7.index t (0 : Fin 2) * 4096 + 1 * (y 0).val; omega
  | ⟨1, _⟩ => show win0_0.index t (1 : Fin 2) * 6 + 1 * k.val = k.val; omega

/-- What point `t` writes back is block `t` of `arr`. -/
theorem flushed7_eq (c : Dev nD) (t : Fin cfg0.N) :
    (dats m 0 c).flushed 7 t = ((cfg0.win 7).blk t).view.read (Elt Ideal) (arr m c) := by
  show (cfg0.win 7).cut (grid0.coords t) ((dats m 0 c).after 7 t) = _
  rw [after7]
  funext y
  show outBlock (F := Ideal) (iblk m c 0 t) (iblk m c 1 t) (iblk m c 2 t) (iblk m c 3 t) (iblk m c 4 t) (iblk m c 5 t) (iblk m c 6 t) y
    = arr m c (((cfg0.win 7).blk t).view.emb y)
  rw [outBlock_apply, mat_iblk1, mat_iblk2, mat_iblk3, mat_iblk4, mat_iblk5, mat_iblk6, row_iblk0]
  obtain ⟨-, -, e70, e71, -⟩ := idx_facts t
  have e1 : (((cfg0.win 7).blk t).view.emb y) 1 = y 1 :=
    Fin.ext (by show win0_7.index t (1 : Fin 2) * 193 + 1 * (y 1).val = (y 1).val; omega)
  unfold arr rowsOut
  rw [e1]

/-- An index of the output array is in point `t`'s block iff each coordinate is in the block's range on its axis. -/
theorem mem_blk7 (t : Fin cfg0.N) (i : S1048576x193.Idx) :
    i ∈ ((cfg0.win 7).blk t).view.set ↔ ∀ a : Fin 2, win0_7.index t a * S4096x193.size a ≤ (i a).val
      ∧ (i a).val < win0_7.index t a * S4096x193.size a + S4096x193.size a := by
  show i ∈ ((View.whole main_v17).slice (win0_7.rect t)).set ↔ _
  rw [View.set_slice_whole, Rect.mem_set_unit]
  exact Iff.rfl

/-- Every index of the output array is in some point's block: row `r` in block `r / 4096`. -/
theorem cover7 (i : S1048576x193.Idx) :
    ∃ t : Fin cfg0.N, (cfg0.win 7).flush t = true ∧ i ∈ ((cfg0.win 7).blk t).view.set := by
  have h0 : (i 0).val < 1048576 := (i 0).isLt
  have h1 : (i 1).val < 193 := (i 1).isLt
  have hN : (i 0).val / 4096 < cfg0.N := by show _ < grid0.N; rw [N_0]; omega
  obtain ⟨-, -, e70, e71, -⟩ := idx_facts ⟨(i 0).val / 4096, hN⟩
  refine ⟨⟨(i 0).val / 4096, hN⟩, flush0_7 _, (mem_blk7 _ i).mpr fun a => ?_⟩
  match a with
  | ⟨0, _⟩ =>
    show win0_7.index ⟨(i 0).val / 4096, hN⟩ (0 : Fin 2) * 4096 ≤ (i 0).val
      ∧ (i 0).val < win0_7.index ⟨(i 0).val / 4096, hN⟩ (0 : Fin 2) * 4096 + 4096
    rw [e70]; show (i 0).val / 4096 * 4096 ≤ (i 0).val ∧ (i 0).val < (i 0).val / 4096 * 4096 + 4096; omega
  | ⟨1, _⟩ =>
    show win0_7.index ⟨(i 0).val / 4096, hN⟩ (1 : Fin 2) * 193 ≤ (i 1).val
      ∧ (i 1).val < win0_7.index ⟨(i 0).val / 4096, hN⟩ (1 : Fin 2) * 193 + 193
    rw [e71]; omega

/-- The output array after the run. -/
theorem final7 (c : Dev nD) : (dats m 0 c).arrAt 7 cfg0.N = arr m c :=
  (dats m 0 c).arrAt_eq_of_cover 7 (arr m c) (fun t _ => flushed7_eq m c t) cover7

end Cert.KernelIdeal.ArrValue

end
-- ==== Proof.LibBlocks3.lean ====
/-
  Three equal blocks along an axis of a matrix, read at an index.

  Three [A, n] matrices set side by side make an [A, 3n] matrix whose entry (p, b·n + q) is matrix `b`'s entry
  (p, q); three [n, B] matrices stacked make a [3n, B] matrix whose entry (b·n + p, c) is matrix `b`'s entry (p, c).
  A [3n, 3n] matrix built as three stacked rows of blocks, row `b` holding a matrix `M b` in place `b` and a zero
  block in the two other places, has entry (b'·n + p, b·n + q) equal to `M b`'s entry (p, q) when `b' = b` and zero
  otherwise: it is block-diagonal.
-/
import Idealize.ShloMosaic.Lib.ValueIdx
import Idealize.ShloMosaic.Lib.Pipeline.Value

noncomputable section

namespace Blocks3

open Idealize.ShloMosaic Idealize.ShloMosaic.ValueIdx

variable {α : Type}

private theorem div_tile {n b q c : ℕ} (hq : q < n) (hc : c = b * n + q) : c / n = b := by
  have hn : 0 < n := by omega
  rw [hc, Nat.add_comm, Nat.add_mul_div_right _ _ hn, Nat.div_eq_of_lt hq, Nat.zero_add]

private theorem mod_tile {n b q c : ℕ} (hq : q < n) (hc : c = b * n + q) : q = c % n := by
  rw [hc, Nat.add_comm, Nat.add_mul_mod_self_right, Nat.mod_eq_of_lt hq]

/-- Three [A, n] matrices side by side, at (p, b·n + q): matrix `b` at (p, q). -/
theorem beside3_apply {A n N : ℕ} (u : Fin 3 → (⟨2, ![A, n]⟩ : Shape).Idx → α)
    (h : Shape.Concatenates [(⟨2, ![A, n]⟩ : Shape), ⟨2, ![A, n]⟩, ⟨2, ![A, n]⟩] ⟨2, ![A, N]⟩ 1)
    (p : Fin A) (b : Fin 3) (q : Fin n) (c : Fin N) (hc : c.val = b.val * n + q.val) :
    concatenate ⟨2, ![A, N]⟩ 1 [⟨⟨2, ![A, n]⟩, u 0⟩, ⟨⟨2, ![A, n]⟩, u 1⟩, ⟨⟨2, ![A, n]⟩, u 2⟩] h (ix2 p c) = u b (ix2 p q) :=
  concatenate_ofFn_apply (t := ⟨2, ![A, N]⟩) (s₁ := ⟨2, ![A, n]⟩) 1 u h rfl n rfl (ix2 p c) b (div_tile q.isLt hc) (ix2 p q)
    (mod_tile q.isLt hc) (fun d hd => by
      match d with
      | ⟨0, _⟩ => rfl
      | ⟨1, _⟩ => exact absurd rfl hd)

/-- Three [n, B] matrices stacked, at (b·n + p, c): matrix `b` at (p, c). -/
theorem stacked3_apply {n N B : ℕ} (u : Fin 3 → (⟨2, ![n, B]⟩ : Shape).Idx → α)
    (h : Shape.Concatenates [(⟨2, ![n, B]⟩ : Shape), ⟨2, ![n, B]⟩, ⟨2, ![n, B]⟩] ⟨2, ![N, B]⟩ 0)
    (b : Fin 3) (p : Fin n) (r : Fin N) (c : Fin B) (hr : r.val = b.val * n + p.val) :
    concatenate ⟨2, ![N, B]⟩ 0 [⟨⟨2, ![n, B]⟩, u 0⟩, ⟨⟨2, ![n, B]⟩, u 1⟩, ⟨⟨2, ![n, B]⟩, u 2⟩] h (ix2 r c) = u b (ix2 p c) :=
  concatenate_ofFn_apply (t := ⟨2, ![N, B]⟩) (s₁ := ⟨2, ![n, B]⟩) 0 u h rfl n rfl (ix2 r c) b (div_tile p.isLt hr) (ix2 p c)
    (mod_tile p.isLt hr) (fun d hd => by
      match d with
      | ⟨0, _⟩ => exact absurd rfl hd
      | ⟨1, _⟩ => rfl)

/-- Three stacked rows of blocks, row `b` holding `M b` in place `b` and `Z` elsewhere, `Z` zero everywhere:
    the entry (b'·n + p, b·n + q) is `M b`'s entry (p, q) when `b' = b`, and zero otherwise. -/
theorem diag3_apply {n N : ℕ} (M : Fin 3 → (⟨2, ![n, n]⟩ : Shape).Idx → EReal) (Z : (⟨2, ![n, n]⟩ : Shape).Idx → EReal)
    (hZ : ∀ i, Z i = 0)
    (h1 : Shape.Concatenates [(⟨2, ![n, n]⟩ : Shape), ⟨2, ![n, n]⟩, ⟨2, ![n, n]⟩] ⟨2, ![n, N]⟩ 1)
    (h0 : Shape.Concatenates [(⟨2, ![n, N]⟩ : Shape), ⟨2, ![n, N]⟩, ⟨2, ![n, N]⟩] ⟨2, ![N, N]⟩ 0)
    (b' b : Fin 3) (p q : Fin n) (r c : Fin N) (hr : r.val = b'.val * n + p.val) (hc : c.val = b.val * n + q.val) :
    concatenate ⟨2, ![N, N]⟩ 0
        [⟨⟨2, ![n, N]⟩, concatenate ⟨2, ![n, N]⟩ 1 [⟨⟨2, ![n, n]⟩, M 0⟩, ⟨⟨2, ![n, n]⟩, Z⟩, ⟨⟨2, ![n, n]⟩, Z⟩] h1⟩,
         ⟨⟨2, ![n, N]⟩, concatenate ⟨2, ![n, N]⟩ 1 [⟨⟨2, ![n, n]⟩, Z⟩, ⟨⟨2, ![n, n]⟩, M 1⟩, ⟨⟨2, ![n, n]⟩, Z⟩] h1⟩,
         ⟨⟨2, ![n, N]⟩, concatenate ⟨2, ![n, N]⟩ 1 [⟨⟨2, ![n, n]⟩, Z⟩, ⟨⟨2, ![n, n]⟩, Z⟩, ⟨⟨2, ![n, n]⟩, M 2⟩] h1⟩] h0 (ix2 r c)
      = if b' = b then M b (ix2 p q) else 0 := by
  have hs := stacked3_apply (α := EReal)
    ![concatenate ⟨2, ![n, N]⟩ 1 [⟨⟨2, ![n, n]⟩, M 0⟩, ⟨⟨2, ![n, n]⟩, Z⟩, ⟨⟨2, ![n, n]⟩, Z⟩] h1,
      concatenate ⟨2, ![n, N]⟩ 1 [⟨⟨2, ![n, n]⟩, Z⟩, ⟨⟨2, ![n, n]⟩, M 1⟩, ⟨⟨2, ![n, n]⟩, Z⟩] h1,
      concatenate ⟨2, ![n, N]⟩ 1 [⟨⟨2, ![n, n]⟩, Z⟩, ⟨⟨2, ![n, n]⟩, Z⟩, ⟨⟨2, ![n, n]⟩, M 2⟩] h1] h0 b' p r c hr
  refine hs.trans ?_
  match b' with
  | ⟨0, _⟩ =>
    refine (beside3_apply ![M 0, Z, Z] h1 p b q c hc).trans ?_
    match b with
    | ⟨0, _⟩ => exact (if_pos rfl).symm
    | ⟨1, _⟩ => exact (hZ _).trans (if_neg (fun h => absurd (congrArg Fin.val h) (show ¬ ((0 : ℕ) = 1) by decide))).symm
    | ⟨2, _⟩ => exact (hZ _).trans (if_neg (fun h => absurd (congrArg Fin.val h) (show ¬ ((0 : ℕ) = 2) by decide))).symm
  | ⟨1, _⟩ =>
    refine (beside3_apply ![Z, M 1, Z] h1 p b q c hc).trans ?_
    match b with
    | ⟨0, _⟩ => exact (hZ _).trans (if_neg (fun h => absurd (congrArg Fin.val h) (show ¬ ((1 : ℕ) = 0) by decide))).symm
    | ⟨1, _⟩ => exact (if_pos rfl).symm
    | ⟨2, _⟩ => exact (hZ _).trans (if_neg (fun h => absurd (congrArg Fin.val h) (show ¬ ((1 : ℕ) = 2) by decide))).symm
  | ⟨2, _⟩ =>
    refine (beside3_apply ![Z, Z, M 2] h1 p b q c hc).trans ?_
    match b with
    | ⟨0, _⟩ => exact (hZ _).trans (if_neg (fun h => absurd (congrArg Fin.val h) (show ¬ ((2 : ℕ) = 0) by decide))).symm
    | ⟨1, _⟩ => exact (hZ _).trans (if_neg (fun h => absurd (congrArg Fin.val h) (show ¬ ((2 : ℕ) = 1) by decide))).symm
    | ⟨2, _⟩ => exact (if_pos rfl).symm

end Blocks3

end
-- ==== Proof.HostWeights.lean ====
/-
  The weight arrays the kernel is handed, as the region finds them, at the ideal values. The host operations copy the
  density net's three matrices unchanged (a change of float format is the identity on the extended reals); set the three
  colour nets' first matrices side by side; and put the three colour nets' second matrices, and their third, on the
  diagonal of a 192 × 192 matrix whose other blocks are a broadcast zero.
-/
import proofs.«111896_j40312563040834_2_alg».proof.Proof.FrameRunI
import proofs.«111896_j40312563040834_2_alg».proof.Proof.RowNets
import proofs.«111896_j40312563040834_2_alg».proof.Proof.LibRowRead
import proofs.«111896_j40312563040834_2_alg».proof.Proof.LibBlocks3
import Idealize.ShloMosaic.Lib.StableHlo.Run

set_option maxRecDepth 16384

noncomputable section

namespace Cert.KernelIdeal.HostWeights

open Cert.KernelIdeal Cert.KernelIdeal.Gen Cert.KernelIdeal.Frm
open Idealize.ShloMosaic Idealize.ShloMosaic.TcCoe Idealize.SL.Sem Idealize.ShloMosaic.ValueIdx Idealize.ShloMosaic.StableHlo
open RowNets RowRead

/-- What a three-operand operation writes, with each operand's contents at its own buffer. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The contents of one buffer after a line of nullary, unary and three-operand host operations, in one pass. -/
macro "after_line3" : tactic =>
  `(tactic| (simp (disch := decide) only [after_cons, after_nil, nullary_result', unary_result', nary3_result',
      nullary_result_ne', unary_result_ne', nary_result_ne']))

variable (m : (ℓ : Loc nD τ sig) → Buf (Elt Ideal) ℓ)

/-- The broadcast zero the host operations fill the off-diagonal blocks with. -/
def zeroBlock : S64x64.Idx → EReal :=
  broadcastInDim S64x64 ![] bcast_S_S64x64 (constant (F := Ideal) S_ .f32 0x00000000#32)

theorem zeroBlock_apply (i : S64x64.Idx) : zeroBlock i = 0 := by
  unfold zeroBlock
  rw [broadcastInDim_apply ![] bcast_S_S64x64 _ i ix0 (fun a => a.elim0)]
  exact Ideal.ofBits_zero_f32

/-! ## The density net's matrices: copies -/

theorem V_v0 (c : Dev nD) : @Eq (S3x64.Idx → EReal) (V m c main_v0) (truncf (F := Ideal) .bf16 (m ((c : Thread nD τ).loc main_arg1)) bitsLt_bf16_f32) := by
  dsimp only [V, hostOps0]; after_line3; try rfl
theorem V_v1 (c : Dev nD) : @Eq (S64x64.Idx → EReal) (V m c main_v1) (truncf (F := Ideal) .bf16 (m ((c : Thread nD τ).loc main_arg2)) bitsLt_bf16_f32) := by
  dsimp only [V, hostOps0]; after_line3; try rfl
theorem V_v2 (c : Dev nD) : @Eq (S64x16.Idx → EReal) (V m c main_v2) (truncf (F := Ideal) .bf16 (m ((c : Thread nD τ).loc main_arg3)) bitsLt_bf16_f32) := by
  dsimp only [V, hostOps0]; after_line3; try rfl

theorem mat_v0 (c : Dev nD) : mat (V m c main_v0) = mat (m ((c : Thread nD τ).loc main_arg1)) := by rw [V_v0]; rfl
theorem mat_v1 (c : Dev nD) : mat (V m c main_v1) = mat (m ((c : Thread nD τ).loc main_arg2)) := by rw [V_v1]; rfl
theorem mat_v2 (c : Dev nD) : mat (V m c main_v2) = mat (m ((c : Thread nD τ).loc main_arg3)) := by rw [V_v2]; rfl

/-! ## The colour nets' first matrices: side by side -/

theorem V_v4 (c : Dev nD) : @Eq (S18x192.Idx → EReal) (V m c main_v4)
    (truncf (F := Ideal) .bf16 (concatenate S18x192 1 [⟨S18x64, (m ((c : Thread nD τ).loc main_arg4))⟩, ⟨S18x64, (m ((c : Thread nD τ).loc main_arg7))⟩, ⟨S18x64, (m ((c : Thread nD τ).loc main_arg10))⟩]
      concatenates_S18x64_S18x64_S18x64_S18x192_d1) bitsLt_bf16_f32) := by
  dsimp only [V, hostOps0]; after_line3; try rfl

theorem side_v4 (c : Dev nD) (k : Fin 18) (b : Fin 3) (q : Fin 64) :
    mat (V m c main_v4) k (at3 b q) = mats3 (m ((c : Thread nD τ).loc main_arg4)) (m ((c : Thread nD τ).loc main_arg7)) (m ((c : Thread nD τ).loc main_arg10)) b k q := by
  rw [V_v4]
  exact Blocks3.beside3_apply ![(m ((c : Thread nD τ).loc main_arg4)), (m ((c : Thread nD τ).loc main_arg7)), (m ((c : Thread nD τ).loc main_arg10))] concatenates_S18x64_S18x64_S18x64_S18x192_d1 k b q (at3 b q) rfl

/-! ## The colour nets' second and third matrices: on the diagonal -/

theorem V_v10 (c : Dev nD) : @Eq (S192x192.Idx → EReal) (V m c main_v10)
    (truncf (F := Ideal) .bf16 (concatenate S192x192 0
      [⟨S64x192, concatenate S64x192 1 [⟨S64x64, (m ((c : Thread nD τ).loc main_arg5))⟩, ⟨S64x64, zeroBlock⟩, ⟨S64x64, zeroBlock⟩] concatenates_S64x64_S64x64_S64x64_S64x192_d1⟩,
       ⟨S64x192, concatenate S64x192 1 [⟨S64x64, zeroBlock⟩, ⟨S64x64, (m ((c : Thread nD τ).loc main_arg8))⟩, ⟨S64x64, zeroBlock⟩] concatenates_S64x64_S64x64_S64x64_S64x192_d1⟩,
       ⟨S64x192, concatenate S64x192 1 [⟨S64x64, zeroBlock⟩, ⟨S64x64, zeroBlock⟩, ⟨S64x64, (m ((c : Thread nD τ).loc main_arg11))⟩] concatenates_S64x64_S64x64_S64x64_S64x192_d1⟩]
      concatenates_S64x192_S64x192_S64x192_S192x192_d0) bitsLt_bf16_f32) := by
  dsimp only [V, hostOps0]; after_line3; try rfl

theorem V_v16 (c : Dev nD) : @Eq (S192x192.Idx → EReal) (V m c main_v16)
    (truncf (F := Ideal) .bf16 (concatenate S192x192 0
      [⟨S64x192, concatenate S64x192 1 [⟨S64x64, (m ((c : Thread nD τ).loc main_arg6))⟩, ⟨S64x64, zeroBlock⟩, ⟨S64x64, zeroBlock⟩] concatenates_S64x64_S64x64_S64x64_S64x192_d1⟩,
       ⟨S64x192, concatenate S64x192 1 [⟨S64x64, zeroBlock⟩, ⟨S64x64, (m ((c : Thread nD τ).loc main_arg9))⟩, ⟨S64x64, zeroBlock⟩] concatenates_S64x64_S64x64_S64x64_S64x192_d1⟩,
       ⟨S64x192, concatenate S64x192 1 [⟨S64x64, zeroBlock⟩, ⟨S64x64, zeroBlock⟩, ⟨S64x64, (m ((c : Thread nD τ).loc main_arg12))⟩] concatenates_S64x64_S64x64_S64x64_S64x192_d1⟩]
      concatenates_S64x192_S64x192_S64x192_S192x192_d0) bitsLt_bf16_f32) := by
  dsimp only [V, hostOps0]; after_line3; try rfl

theorem diag_v10 (c : Dev nD) (b' b : Fin 3) (p q : Fin 64) :
    mat (V m c main_v10) (at3 b' p) (at3 b q) = if b' = b then mats3 (m ((c : Thread nD τ).loc main_arg5)) (m ((c : Thread nD τ).loc main_arg8)) (m ((c : Thread nD τ).loc main_arg11)) b p q else 0 := by
  rw [V_v10]
  exact Blocks3.diag3_apply ![(m ((c : Thread nD τ).loc main_arg5)), (m ((c : Thread nD τ).loc main_arg8)), (m ((c : Thread nD τ).loc main_arg11))] zeroBlock zeroBlock_apply
    concatenates_S64x64_S64x64_S64x64_S64x192_d1 concatenates_S64x192_S64x192_S64x192_S192x192_d0 b' b p q (at3 b' p) (at3 b q) rfl rfl

theorem diag_v16 (c : Dev nD) (b' b : Fin 3) (p q : Fin 64) :
    mat (V m c main_v16) (at3 b' p) (at3 b q) = if b' = b then mats3 (m ((c : Thread nD τ).loc main_arg6)) (m ((c : Thread nD τ).loc main_arg9)) (m ((c : Thread nD τ).loc main_arg12)) b p q else 0 := by
  rw [V_v16]
  exact Blocks3.diag3_apply ![(m ((c : Thread nD τ).loc main_arg6)), (m ((c : Thread nD τ).loc main_arg9)), (m ((c : Thread nD τ).loc main_arg12))] zeroBlock zeroBlock_apply
    concatenates_S64x64_S64x64_S64x64_S64x192_d1 concatenates_S64x192_S64x192_S64x192_S192x192_d0 b' b p q (at3 b' p) (at3 b q) rfl rfl

end Cert.KernelIdeal.HostWeights

end
-- ==== Proof.RefRow.lean ====
/-
  What the reference computes, row by row, at the ideal values: row `r` of its result is the plain output row — three
  separate colour nets and the density net's first output — of row `r` of the input array.
-/
import proofs.«111896_j40312563040834_2_alg».proof.Proof.Gen.ReferenceIdeal.Read
import proofs.«111896_j40312563040834_2_alg».proof.Proof.RowNets
import proofs.«111896_j40312563040834_2_alg».proof.Proof.LibRowRead

set_option maxRecDepth 16384

noncomputable section

namespace Cert.ReferenceIdeal.RowValue

open Cert.ReferenceIdeal Cert.ReferenceIdeal.Read Idealize.ShloMosaic Idealize.ShloMosaic.ValueIdx RowNets RowRead

/-- Row `r` of the density net's sixteen outputs. -/
theorem v6_row (x0 : S1048576x6.Idx → EReal) (x1 : S3x64.Idx → EReal) (x2 : S64x64.Idx → EReal) (x3 : S64x16.Idx → EReal)
    (r : Fin 1048576) :
    rowOf (val_main_v6 (F := Ideal) x0 x1 x2 x3) r = density (rowOf x0 r) (mat x1) (mat x2) (mat x3) := by
  unfold val_main_v6 val_main_v5 val_main_v4 val_main_v3 val_main_v2 val_main_v0 val_main_call1_v0 val_main_call1_cst val_main_call0_v0 val_main_call0_cst
  rw [rowOf_dotGeneral _ (rfl : dot_S1048576x64_S64x16_S1048576x16_1_0_0_1_n_n = DotDims.plain 1048576 64 16), rowOf_max_host,
    rowOf_dotGeneral _ (rfl : dot_S1048576x64_S64x64_S1048576x64_1_0_0_1_n_n = DotDims.plain 1048576 64 64), rowOf_max_host,
    rowOf_dotGeneral _ (rfl : dot_S1048576x3_S3x64_S1048576x64_1_0_0_1_n_n = DotDims.plain 1048576 3 64),
    rowOf_slice_front (by decide)]
  rfl

/-- Row `r` of the colour nets' eighteen inputs. -/
theorem v10_row (x0 : S1048576x6.Idx → EReal) (x1 : S3x64.Idx → EReal) (x2 : S64x64.Idx → EReal) (x3 : S64x16.Idx → EReal)
    (r : Fin 1048576) :
    rowOf (val_main_v10 (F := Ideal) x0 x1 x2 x3) r = colourIn (rowOf x0 r) (density (rowOf x0 r) (mat x1) (mat x2) (mat x3)) := by
  unfold val_main_v10 val_main_v1 val_main_v9
  rw [rowOf_beside _ _ _ (by decide), rowOf_slice 3 (by decide), rowOf_slice 1 (by decide), v6_row]
  rfl

/-- The first 64 result columns: one colour net of the colour inputs. -/
theorem v15_row (x0 : S1048576x6.Idx → EReal) (x1 : S3x64.Idx → EReal) (x2 : S64x64.Idx → EReal) (x3 : S64x16.Idx → EReal)
    (w0 : S18x64.Idx → EReal) (w1 w2 : S64x64.Idx → EReal) (r : Fin 1048576) :
    rowOf (val_main_v15 (F := Ideal) x0 x1 x2 x3 w0 w1 w2) r
      = mlp3 (colourIn (rowOf x0 r) (density (rowOf x0 r) (mat x1) (mat x2) (mat x3))) (mat w0) (mat w1) (mat w2) := by
  unfold val_main_v15 val_main_v14 val_main_v13 val_main_v12 val_main_v11 val_main_call3_v0 val_main_call3_cst val_main_call2_v0 val_main_call2_cst
  rw [rowOf_dotGeneral _ (rfl : dot_S1048576x64_S64x64_S1048576x64_1_0_0_1_n_n = DotDims.plain 1048576 64 64), rowOf_max_host,
    rowOf_dotGeneral _ (rfl : dot_S1048576x64_S64x64_S1048576x64_1_0_0_1_n_n = DotDims.plain 1048576 64 64), rowOf_max_host,
    rowOf_dotGeneral _ (rfl : dot_S1048576x18_S18x64_S1048576x64_1_0_0_1_n_n = DotDims.plain 1048576 18 64), v10_row]
  rfl

/-- The next 64 result columns: one colour net of the colour inputs. -/
theorem v20_row (x0 : S1048576x6.Idx → EReal) (x1 : S3x64.Idx → EReal) (x2 : S64x64.Idx → EReal) (x3 : S64x16.Idx → EReal)
    (w0 : S18x64.Idx → EReal) (w1 w2 : S64x64.Idx → EReal) (r : Fin 1048576) :
    rowOf (val_main_v20 (F := Ideal) x0 x1 x2 x3 w0 w1 w2) r
      = mlp3 (colourIn (rowOf x0 r) (density (rowOf x0 r) (mat x1) (mat x2) (mat x3))) (mat w0) (mat w1) (mat w2) := by
  unfold val_main_v20 val_main_v19 val_main_v18 val_main_v17 val_main_v16 val_main_call5_v0 val_main_call5_cst val_main_call4_v0 val_main_call4_cst
  rw [rowOf_dotGeneral _ (rfl : dot_S1048576x64_S64x64_S1048576x64_1_0_0_1_n_n = DotDims.plain 1048576 64 64), rowOf_max_host,
    rowOf_dotGeneral _ (rfl : dot_S1048576x64_S64x64_S1048576x64_1_0_0_1_n_n = DotDims.plain 1048576 64 64), rowOf_max_host,
    rowOf_dotGeneral _ (rfl : dot_S1048576x18_S18x64_S1048576x64_1_0_0_1_n_n = DotDims.plain 1048576 18 64), v10_row]
  rfl

/-- The third 64 result columns: one colour net of the colour inputs. -/
theorem v25_row (x0 : S1048576x6.Idx → EReal) (x1 : S3x64.Idx → EReal) (x2 : S64x64.Idx → EReal) (x3 : S64x16.Idx → EReal)
    (w0 : S18x64.Idx → EReal) (w1 w2 : S64x64.Idx → EReal) (r : Fin 1048576) :
    rowOf (val_main_v25 (F := Ideal) x0 x1 x2 x3 w0 w1 w2) r
      = mlp3 (colourIn (rowOf x0 r) (density (rowOf x0 r) (mat x1) (mat x2) (mat x3))) (mat w0) (mat w1) (mat w2) := by
  unfold val_main_v25 val_main_v24 val_main_v23 val_main_v22 val_main_v21 val_main_call7_v0 val_main_call7_cst val_main_call6_v0 val_main_call6_cst
  rw [rowOf_dotGeneral _ (rfl : dot_S1048576x64_S64x64_S1048576x64_1_0_0_1_n_n = DotDims.plain 1048576 64 64), rowOf_max_host,
    rowOf_dotGeneral _ (rfl : dot_S1048576x64_S64x64_S1048576x64_1_0_0_1_n_n = DotDims.plain 1048576 64 64), rowOf_max_host,
    rowOf_dotGeneral _ (rfl : dot_S1048576x18_S18x64_S1048576x64_1_0_0_1_n_n = DotDims.plain 1048576 18 64), v10_row]
  rfl

/-- The last result column: the density net's first output. -/
theorem v26_apply (x0 : S1048576x6.Idx → EReal) (x1 : S3x64.Idx → EReal) (x2 : S64x64.Idx → EReal) (x3 : S64x16.Idx → EReal)
    (r : Fin 1048576) (k : Fin 1) :
    val_main_v26 (F := Ideal) x0 x1 x2 x3 (ix2 r k) = density (rowOf x0 r) (mat x1) (mat x2) (mat x3) 0 := by
  rw [val_main_v26_apply, val_main_v8_apply, val_main_v7_apply, ← v6_row]
  show val_main_v6 (F := Ideal) x0 x1 x2 x3 _ = val_main_v6 (F := Ideal) x0 x1 x2 x3 (ix2 r 0)
  refine congrArg _ (funext fun a => Fin.ext ?_)
  match a with
  | ⟨0, _⟩ => show r.val / 1 = r.val; omega
  | ⟨1, _⟩ => rfl

end Cert.ReferenceIdeal.RowValue

end
-- ==== Proof.RefResult.lean ====
/-
  The reference's result, entry by entry: its four pieces set side by side — the three colour nets' outputs and the
  density column — make, in row `r`, the plain output row of row `r` of the input array.
-/
import proofs.«111896_j40312563040834_2_alg».proof.Proof.RefRow

set_option maxRecDepth 16384

noncomputable section

namespace Cert.ReferenceIdeal.RowValue

open Cert.ReferenceIdeal Cert.ReferenceIdeal.Gen Cert.ReferenceIdeal.Read Idealize.ShloMosaic Idealize.ShloMosaic.ValueIdx RowNets RowRead

theorem mats3_zero {a b : ℕ} (u0 u1 u2 : (⟨2, ![a, b]⟩ : Shape).Idx → EReal) (h : 0 < 3) : mats3 u0 u1 u2 ⟨0, h⟩ = mat u0 := rfl
theorem mats3_one {a b : ℕ} (u0 u1 u2 : (⟨2, ![a, b]⟩ : Shape).Idx → EReal) (h : 1 < 3) : mats3 u0 u1 u2 ⟨1, h⟩ = mat u1 := rfl
theorem mats3_two {a b : ℕ} (u0 u1 u2 : (⟨2, ![a, b]⟩ : Shape).Idx → EReal) (h : 2 < 3) : mats3 u0 u1 u2 ⟨2, h⟩ = mat u2 := rfl

/-- The reference's result at an index. -/
theorem result_apply (x0 : S1048576x6.Idx → EReal) (x1 : S3x64.Idx → EReal) (x2 : S64x64.Idx → EReal) (x3 : S64x16.Idx → EReal)
    (x4 : S18x64.Idx → EReal) (x5 x6 : S64x64.Idx → EReal) (x7 : S18x64.Idx → EReal) (x8 x9 : S64x64.Idx → EReal)
    (x10 : S18x64.Idx → EReal) (x11 x12 : S64x64.Idx → EReal) (p : Fin 1048576) (j : Fin 193) :
    val_main_v27 (F := Ideal) x0 x1 x2 x3 x4 x5 x6 x7 x8 x9 x10 x11 x12 (ix2 p j)
      = plainRow (rowOf x0 p) (mat x1) (mat x2) (mat x3) (mats3 x4 x7 x10) (mats3 x5 x8 x11) (mats3 x6 x9 x12) j := by
  have h1 : j.val < 193 := j.isLt
  unfold val_main_v27
  by_cases c0 : j.val < 64
  ·
    have hq : j.val - 0 < 64 := by omega
    rw [concatenate_apply_piece (α := EReal) (t := S1048576x193) 1 [⟨S1048576x64, val_main_v15 (F := Ideal) x0 x1 x2 x3 x4 x5 x6⟩, ⟨S1048576x64, val_main_v20 (F := Ideal) x0 x1 x2 x3 x7 x8 x9⟩, ⟨S1048576x64, val_main_v25 (F := Ideal) x0 x1 x2 x3 x10 x11 x12⟩, ⟨S1048576x1, val_main_v26 (F := Ideal) x0 x1 x2 x3⟩] concatenates_S1048576x64_S1048576x64_S1048576x64_S1048576x1_S1048576x193_d1 (ix2 p j) 0 (by simp) S1048576x64 _ rfl rfl 0 rfl
      (ix2 p ⟨j.val - 0, hq⟩) (fun b hb => by
        match b with
        | ⟨0, _⟩ => rfl
        | ⟨1, _⟩ => exact absurd rfl hb) (by show 0 + (j.val - 0) = j.val; omega)]
    show rowOf (val_main_v15 (F := Ideal) _ _ _ _ _ _ _) p ⟨j.val - 0, hq⟩ = _
    rw [v15_row]
    rw [plainRow_at (rowOf x0 p) (mat x1) (mat x2) (mat x3) (mats3 x4 x7 x10) (mats3 x5 x8 x11) (mats3 x6 x9 x12) ⟨0, by decide⟩ ⟨j.val - 0, hq⟩ j (by show j.val = 0 * 64 + (j.val - 0); omega),
      mats3_zero, mats3_zero, mats3_zero]
  by_cases c1 : j.val < 128
  ·
    have hq : j.val - 64 < 64 := by omega
    rw [concatenate_apply_piece (α := EReal) (t := S1048576x193) 1 [⟨S1048576x64, val_main_v15 (F := Ideal) x0 x1 x2 x3 x4 x5 x6⟩, ⟨S1048576x64, val_main_v20 (F := Ideal) x0 x1 x2 x3 x7 x8 x9⟩, ⟨S1048576x64, val_main_v25 (F := Ideal) x0 x1 x2 x3 x10 x11 x12⟩, ⟨S1048576x1, val_main_v26 (F := Ideal) x0 x1 x2 x3⟩] concatenates_S1048576x64_S1048576x64_S1048576x64_S1048576x1_S1048576x193_d1 (ix2 p j) 1 (by simp) S1048576x64 _ rfl rfl 64 rfl
      (ix2 p ⟨j.val - 64, hq⟩) (fun b hb => by
        match b with
        | ⟨0, _⟩ => rfl
        | ⟨1, _⟩ => exact absurd rfl hb) (by show 64 + (j.val - 64) = j.val; omega)]
    show rowOf (val_main_v20 (F := Ideal) _ _ _ _ _ _ _) p ⟨j.val - 64, hq⟩ = _
    rw [v20_row]
    rw [plainRow_at (rowOf x0 p) (mat x1) (mat x2) (mat x3) (mats3 x4 x7 x10) (mats3 x5 x8 x11) (mats3 x6 x9 x12) ⟨1, by decide⟩ ⟨j.val - 64, hq⟩ j (by show j.val = 1 * 64 + (j.val - 64); omega),
      mats3_one, mats3_one, mats3_one]
  by_cases c2 : j.val < 192
  ·
    have hq : j.val - 128 < 64 := by omega
    rw [concatenate_apply_piece (α := EReal) (t := S1048576x193) 1 [⟨S1048576x64, val_main_v15 (F := Ideal) x0 x1 x2 x3 x4 x5 x6⟩, ⟨S1048576x64, val_main_v20 (F := Ideal) x0 x1 x2 x3 x7 x8 x9⟩, ⟨S1048576x64, val_main_v25 (F := Ideal) x0 x1 x2 x3 x10 x11 x12⟩, ⟨S1048576x1, val_main_v26 (F := Ideal) x0 x1 x2 x3⟩] concatenates_S1048576x64_S1048576x64_S1048576x64_S1048576x1_S1048576x193_d1 (ix2 p j) 2 (by simp) S1048576x64 _ rfl rfl 128 rfl
      (ix2 p ⟨j.val - 128, hq⟩) (fun b hb => by
        match b with
        | ⟨0, _⟩ => rfl
        | ⟨1, _⟩ => exact absurd rfl hb) (by show 128 + (j.val - 128) = j.val; omega)]
    show rowOf (val_main_v25 (F := Ideal) _ _ _ _ _ _ _) p ⟨j.val - 128, hq⟩ = _
    rw [v25_row]
    rw [plainRow_at (rowOf x0 p) (mat x1) (mat x2) (mat x3) (mats3 x4 x7 x10) (mats3 x5 x8 x11) (mats3 x6 x9 x12) ⟨2, by decide⟩ ⟨j.val - 128, hq⟩ j (by show j.val = 2 * 64 + (j.val - 128); omega),
      mats3_two, mats3_two, mats3_two]
  · have hq : j.val - 192 < 1 := by omega
    rw [concatenate_apply_piece (α := EReal) (t := S1048576x193) 1 [⟨S1048576x64, val_main_v15 (F := Ideal) x0 x1 x2 x3 x4 x5 x6⟩, ⟨S1048576x64, val_main_v20 (F := Ideal) x0 x1 x2 x3 x7 x8 x9⟩, ⟨S1048576x64, val_main_v25 (F := Ideal) x0 x1 x2 x3 x10 x11 x12⟩, ⟨S1048576x1, val_main_v26 (F := Ideal) x0 x1 x2 x3⟩] concatenates_S1048576x64_S1048576x64_S1048576x64_S1048576x1_S1048576x193_d1 (ix2 p j) 3 (by simp) S1048576x1 _ rfl rfl 192 rfl
      (ix2 p ⟨j.val - 192, hq⟩) (fun b hb => by
        match b with
        | ⟨0, _⟩ => rfl
        | ⟨1, _⟩ => exact absurd rfl hb) (by show 192 + (j.val - 192) = j.val; omega)]
    rw [v26_apply]
    exact (plainRow_last (rowOf x0 p) (mat x1) (mat x2) (mat x3) (mats3 x4 x7 x10) (mats3 x5 x8 x11) (mats3 x6 x9 x12) j (by omega)).symm

end Cert.ReferenceIdeal.RowValue

end
-- ==== Proof.Bridge.lean ====
/-
  The kernel's output array and the reference's result are one function of the argument arrays: row by row, the fused
  output row over the weight arrays the host operations built equals the plain output row over the arguments.
-/
import proofs.«111896_j40312563040834_2_alg».proof.Proof.KernelArray
import proofs.«111896_j40312563040834_2_alg».proof.Proof.HostWeights
import proofs.«111896_j40312563040834_2_alg».proof.Proof.RefResult

set_option maxRecDepth 16384

noncomputable section

namespace Cert.Proof.Bridge

open Idealize.ShloMosaic Idealize.ShloMosaic.TcCoe Idealize.SL.Sem Idealize.ShloMosaic.ValueIdx RowNets RowRead

/-- The array the kernel's run leaves in its result buffer is the reference's result stage of the same arguments. -/
theorem arr_eq (m : (ℓ : Loc Cert.KernelIdeal.nD Cert.KernelIdeal.τ Cert.KernelIdeal.sig) → Buf (Elt Ideal) ℓ) (c : Dev Cert.KernelIdeal.nD) :
    Cert.KernelIdeal.ArrValue.arr m c
      = Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  funext i
  obtain ⟨p, j, rfl⟩ : ∃ (p : Fin 1048576) (j : Fin 193), i = ix2 p j := ⟨i 0, i 1, eq_ix2 i⟩
  rw [Cert.ReferenceIdeal.RowValue.result_apply]
  unfold Cert.KernelIdeal.ArrValue.arr Cert.KernelIdeal.ArrValue.rowsOut
  rw [Cert.KernelIdeal.HostWeights.mat_v0, Cert.KernelIdeal.HostWeights.mat_v1, Cert.KernelIdeal.HostWeights.mat_v2,
    Cert.KernelIdeal.Frm.V_unwritten m c Cert.KernelIdeal.main_arg0 (by decide)]
  exact congrFun (fusedRow_eq _ _ _ _ _ _ _ _ _ _ (Cert.KernelIdeal.HostWeights.side_v4 m c)
    (Cert.KernelIdeal.HostWeights.diag_v10 m c) (Cert.KernelIdeal.HostWeights.diag_v16 m c)) j

end Cert.Proof.Bridge

end
-- ==== Proof.lean ====
/-
  The certificate. Kernel and reference compute, for each of 1,048,576 input rows of six numbers, 193 outputs: three
  bias-free three-layer colour nets of width 64 and the first output of a density net, whose other outputs feed the colour
  nets. The kernel fuses the three colour nets into one net of width 192 — first-layer matrices side by side, later
  layers block-diagonal — and computes 4096 rows per grid point; at the ideal values the two are the same function of
  the arguments, because a product with a zero weight is zero for every extended real. Both frames of the kernel are the
  pipeline's run of a body that keeps nothing between points; the reference's frame is its run with the result dropped;
  no operation of the kernel was rewritten by the ideal pass, so there is nothing to preserve.
-/
import proofs.«111896_j40312563040834_2_alg».proof.Defs
import proofs.«111896_j40312563040834_2_alg».proof.Proof.Gen.Kernel
import proofs.«111896_j40312563040834_2_alg».proof.Proof.Gen.KernelIdeal
import proofs.«111896_j40312563040834_2_alg».proof.Proof.Gen.ReferenceIdeal
import proofs.«111896_j40312563040834_2_alg».proof.Proof.Gen.Pre_finite_inputs
import proofs.«111896_j40312563040834_2_alg».proof.Proof.Gen.ReferenceIdeal.Run
import proofs.«111896_j40312563040834_2_alg».proof.Proof.FrameRunK
import proofs.«111896_j40312563040834_2_alg».proof.Proof.FrameRunI
import proofs.«111896_j40312563040834_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run, the kernel's result buffer ending at the array its 256
    blocks tile and the reference's at its result stage: one function of the arguments. -/
theorem algebraic : Cert.algebraic_KernelIdeal_ReferenceIdeal := by
  intro m ρ m' ρ' _ hagree
  refine ⟨fun c => Cert.KernelIdeal.ArrValue.arr m c, ?_, ?_⟩
  · exact (θ_run Cert.KernelIdeal.defs _ _).mono
      (fun r h c => ⟨((h c).1).trans (Cert.KernelIdeal.ArrValue.final7 m c), (h c).2⟩)
      (Cert.KernelIdeal.Frm.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v27_eq, a0, a1, a2, a3, a4, a5, a6, a7, a8, a9, a10, a11, a12]
    exact (Cert.Proof.Bridge.arr_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
